-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S1048576x3 : S_.BroadcastsInDim S1048576x3 (![] : Fin 0 → Fin S1048576x3.rank)
  reducesTo_S1048576x3_S_d0_1 : S1048576x3.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S3 .f32) (main_v48 : IVec S_ 1) (main_v49 : FVec F S64x3 .f32) (main_v50 : FVec F S64x3 .f32) : IVec S_ 1 :=
  let main_v51 : IVec S64x3 1 := cmpf .olt main_v49 main_v50
  let main_c_19 : IVec S_ 1 := constantI S_ 1 1#1
  let main_v52 : IVec S_ 1 := (fun x v => Host.reduce IntOp.andi x v reducesTo_S64x3_S_d0_1 h_S_) main_v51 main_c_19
  let main_v53 : IVec S_ 1 := andi main_v48 main_v52
  let main_v54 : FVec F S3 .f32 := Host.absf main_arg11
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x3 .f32) (main_arg11 : FVec F S3 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x3 .f32 := Host.absf main_arg10
  let main_cst_18 : FVec F S_ .f32 := constant S_ .f32 0x7F800000#32
  let main_v50 : FVec F S64x3 .f32 := broadcastInDim S64x3 ![] bcast_S_S64x3 main_cst_18
  fn_part3 (F := F) main_arg11 main_v48 main_v49 main_v50

def fn_part1 {F : FTy → Type} [FloatOps F] (main_arg4 : FVec F S64x16 .f32) (main_arg5 : FVec F S16 .f32) (main_arg6 : FVec F S32x64 .f32) (main_arg7 : FVec F S64 .f32) (main_arg8 : FVec F S64x64 .f32) (main_arg9 : FVec F S64 .f32) (main_arg10 : FVec F S64x3 .f32) (main_arg11 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S1048576x32 .f32) (main_arg1 : FVec F S1048576x3 .f32) (main_arg2 : FVec F S32x64 .f32) (main_arg3 : FVec F S64 .f32) (main_arg4 : FVec F S64x16 .f32) (main_arg5 : FVec F S16 .f32) (main_arg6 : FVec F S32x64 .f32) (main_arg7 : FVec F S64 .f32) (main_arg8 : FVec F S64x64 .f32) (main_arg9 : FVec F S64 .f32) (main_arg10 : FVec F S64x3 .f32) (main_arg11 : FVec F S3 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x3 .f32 := Host.absf main_arg1
  let main_cst_0 : FVec F S_ .f32 := constant S_ .f32 0x7F800000#32
  let main_v5 : FVec F S1048576x3 .f32 := broadcastInDim S1048576x3 ![] bcast_S_S1048576x3 main_cst_0
  let main_v6 : IVec S1048576x3 1 := cmpf .olt main_v4 main_v5
  let main_c_1 : IVec S_ 1 := constantI S_ 1 1#1
  let main_v7 : IVec S_ 1 := (fun x v => Host.reduce IntOp.andi x v reducesTo_S1048576x3_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S1048576x16 : Shape := ⟨2, ![1048576, 16]⟩
abbrev S1024x32 : Shape := ⟨2, ![1024, 32]⟩
abbrev S1024x3 : Shape := ⟨2, ![1024, 3]⟩
abbrev S1024x16 : Shape := ⟨2, ![1024, 16]⟩
abbrev S1024x64 : Shape := ⟨2, ![1024, 64]⟩
abbrev S1x64 : Shape := ⟨2, ![1, 64]⟩
abbrev S1x16 : Shape := ⟨2, ![1, 16]⟩
abbrev S1024x1 : Shape := ⟨2, ![1024, 1]⟩
abbrev S1024 : Shape := ⟨1, ![1024]⟩
abbrev S1x3 : Shape := ⟨2, ![1, 3]⟩

abbrev nBuf : Space → Nat
  | .hbm => 14
  | .vmem => 18
  | .smem => 0
  | _ => 0

abbrev bufTy : (tb : Table) → Fin (tcTables nBuf tb) → BufTy
  | .hbm, ⟨0, _⟩ => ⟨S1048576x32, .f32⟩
  | .hbm, ⟨1, _⟩ => ⟨S1048576x3, .f32⟩
  | .hbm, ⟨2, _⟩ => ⟨S32x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S32x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x3, .f32⟩
  | .hbm, ⟨11, _⟩ => ⟨S3, .f32⟩
  | .hbm, ⟨12, _⟩ => ⟨S1048576x16, .f32⟩
  | .hbm, ⟨13, _⟩ => ⟨S1048576x3, .f32⟩
  | .local _ .vmem, ⟨0, _⟩ => ⟨S1024x32, .f32⟩
  | .local _ .vmem, ⟨1, _⟩ => ⟨S1024x32, .f32⟩
  | .local _ .vmem, ⟨2, _⟩ => ⟨S1024x3, .f32⟩
  | .local _ .vmem, ⟨3, _⟩ => ⟨S1024x3, .f32⟩
  | .local _ .vmem, ⟨4, _⟩ => ⟨S32x64, .f32⟩
  | .local _ .vmem, ⟨5, _⟩ => ⟨S64, .f32⟩
  | .local _ .vmem, ⟨6, _⟩ => ⟨S64x16, .f32⟩
  | .local _ .vmem, ⟨7, _⟩ => ⟨S16, .f32⟩
  | .local _ .vmem, ⟨8, _⟩ => ⟨S32x64, .f32⟩
  | .local _ .vmem, ⟨9, _⟩ => ⟨S64, .f32⟩
  | .local _ .vmem, ⟨10, _⟩ => ⟨S64x64, .f32⟩
  | .local _ .vmem, ⟨11, _⟩ => ⟨S64, .f32⟩
  | .local _ .vmem, ⟨12, _⟩ => ⟨S64x3, .f32⟩
  | .local _ .vmem, ⟨13, _⟩ => ⟨S3, .f32⟩
  | .local _ .vmem, ⟨14, _⟩ => ⟨S1024x16, .f32⟩
  | .local _ .vmem, ⟨15, _⟩ => ⟨S1024x16, .f32⟩
  | .local _ .vmem, ⟨16, _⟩ => ⟨S1024x3, .f32⟩
  | .local _ .vmem, ⟨17, _⟩ => ⟨S1024x3, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x16 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S1024x32_S1024x32_0_0 : ∀ a, (![0, 0] : Fin 2 → Nat) a + S1024x32.size a ≤ S1024x32.size a
  h_S1024x32 : 0 < S1024x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x16_S64x16_0_0 : ∀ a, (![0, 0] : Fin 2 → Nat) a + S64x16.size a ≤ S64x16.size a
  h_S64x16 : 0 < S64x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  inb_S1024x3_S1024x3_0_0 : ∀ a, (![0, 0] : Fin 2 → Nat) a + S1024x3.size a ≤ S1024x3.size a
  h_S1024x3 : 0 < S1024x3.numel
  slices_S1024x3_o0_0_S1024x1 : S1024x3.Slices ![0, 0] S1024x1
  shapeCasts_S1024x1_S1024 : S1024x1.ShapeCasts S1024
  slices_S1024x3_o0_1_S1024x1 : S1024x3.Slices ![0, 1] S1024x1
  slices_S1024x3_o0_2_S1024x1 : S1024x3.Slices ![0, 2] S1024x1
  shapeCasts_S1024_S1024x1 : S1024.ShapeCasts S1024x1
  concatenates_S1024x1_S1024x1_S1024x1_S1024x1_S1024x1_S1024x1_S1024x1_S1024x1_S1024x1_S1024x1_S1024x1_S1024x1_S1024x1_S1024x1_S1024x1_S1024x1_S1024x16_d1 : Shape.Concatenates [S1024x1, S1024x1, S1024x1, S1024x1, S1024x1, S1024x1, S1024x1, S1024x1, S1024x1, S1024x1, S1024x1, S1024x1, S1024x1, S1024x1, S1024x1, S1024x1] S1024x16 1
  concatenates_S1024x16_S1024x16_S1024x32_d1 : Shape.Concatenates [S1024x16, S1024x16] S1024x32 1
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S1024x3 : S1x3.Broadcasts S1024x3
  dot_S1024x32_S32x64_S1024x64_1_0_0_1_n_n_wf : DotDims.WF S1024x32 S32x64 S1024x64 [1] [0] [0] [1] [] []
  dot_S1024x64_S64x16_S1024x16_1_0_0_1_n_n_wf : DotDims.WF S1024x64 S64x16 S1024x16 [1] [0] [0] [1] [] []
  dot_S1024x64_S64x64_S1024x64_1_0_0_1_n_n_wf : DotDims.WF S1024x64 S64x64 S1024x64 [1] [0] [0] [1] [] []
  dot_S1024x64_S64x3_S1024x3_1_0_0_1_n_n_wf : DotDims.WF S1024x64 S64x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S1048576x32.size a
  hwx0_0 : ∀ i : grid0.Coords, EltTy.bits .f32 = 32 ∨ (Rect.block (s := S1048576x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S1048576x3.size a
  hwx0_1 : ∀ i : grid0.Coords, EltTy.bits .f32 = 32 ∨ (Rect.block (s := S1048576x3) S1024x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16.size a ≤ S16.size a
  hwx0_5 : ∀ i : grid0.Coords, EltTy.bits .f32 = 32 ∨ (Rect.block (s := S16) S16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x64.size a ≤ S32x64.size a
  hwx0_6 : ∀ i : grid0.Coords, EltTy.bits .f32 = 32 ∨ (Rect.block (s := S32x64) S32x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x3.size a ≤ S64x3.size a
  hwx0_10 : ∀ i : grid0.Coords, EltTy.bits .f32 = 32 ∨ (Rect.block (s := S64x3) S64x3.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3.size a ≤ S3.size a
  hwx0_11 : ∀ i : grid0.Coords, EltTy.bits .f32 = 32 ∨ (Rect.block (s := S3) S3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x16.size a ≤ S1048576x16.size a
  hwx0_12 : ∀ i : grid0.Coords, EltTy.bits .f32 = 32 ∨ (Rect.block (s := S1048576x16) S1024x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x3.size a ≤ S1048576x3.size a
  hwx0_13 : ∀ i : grid0.Coords, EltTy.bits .f32 = 32 ∨ (Rect.block (s := S1048576x3) S1024x3.size (cc0_transform_13 i) (hinb0_13 i)).WholeWords (EltTy.packing .f32)

variable [Facts₀]

def dot_S1024x32_S32x64_S1024x64_1_0_0_1_n_n : DotDims S1024x32 S32x64 S1024x64 where
  lhsContracting := [1]
  rhsContracting := [0]
  lhsNonContracting := [0]
  rhsNonContracting := [1]
  lhsBatch := []
  rhsBatch := []
  wf := dot_S1024x32_S32x64_S1024x64_1_0_0_1_n_n_wf
def dot_S1024x64_S64x16_S1024x16_1_0_0_1_n_n : DotDims S1024x64 S64x16 S1024x16 where
  lhsContracting := [1]
  rhsContracting := [0]
  lhsNonContracting := [0]
  rhsNonContracting := [1]
  lhsBatch := []
  rhsBatch := []
  wf := dot_S1024x64_S64x16_S1024x16_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf

abbrev win0_0 : Pipeline.Window sig grid0 :=
  Pipeline.Window.ofSpec (Memref.whole main_arg0) S1024x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S1024x16.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S1024x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S1048576x3 : Shape := ⟨2, ![1048576, 3]⟩
abbrev S32x64 : Shape := ⟨2, ![32, 64]⟩
abbrev S64 : Shape := ⟨1, ![64]⟩
abbrev S64x16 : Shape := ⟨2, ![64, 16]⟩
abbrev S16 : Shape := ⟨1, ![16]⟩
abbrev S64x64 : Shape := ⟨2, ![64, 64]⟩
abbrev S64x3 : Shape := ⟨2, ![64, 3]⟩
abbrev S3 : Shape := ⟨1, ![3]⟩
abbrev S1048576x64 : Shape := ⟨2, ![1048576, 64]⟩
abbrev S1x64 : Shape := ⟨2, ![1, 64]⟩
abbrev S_ : Shape := ⟨0, ![]⟩
abbrev S1048576x16 : Shape := ⟨2, ![1048576, 16]⟩
abbrev S1x16 : Shape := ⟨2, ![1, 16]⟩
abbrev S1048576x1 : Shape := ⟨2, ![1048576, 1]⟩
abbrev S1048576 : Shape := ⟨1, ![1048576]⟩
abbrev S1x3 : Shape := ⟨2, ![1, 3]⟩

abbrev nBuf : Space → Nat
  | .hbm => 165
  | .vmem => 0
  | .smem => 0
  | _ => 0

abbrev hbmTy0_0 (i : Nat) : BufTy := match i % 128 with
  | 0 => ⟨S1048576x32, .f32⟩
  | 1 => ⟨S1048576x3, .f32⟩
  | 2 => ⟨S32x64, .f32⟩
  | 3 => ⟨S64, .f32⟩
  | 4 => ⟨S64x16, .f32⟩
  | 5 => ⟨S16, .f32⟩
  | 6 => ⟨S32x64, .f32⟩
  | 7 => ⟨S64, .f32⟩
  | 8 => ⟨S64x64, .f32⟩
  | 9 => ⟨S64, .f32⟩
  | 10 => ⟨S64x3, .f32⟩
  | 11 => ⟨S3, .f32⟩
  | 12 => ⟨S1048576x64, .f32⟩
  | 13 => ⟨S1x64, .f32⟩
  | 14 => ⟨S1048576x64, .f32⟩
  | 15 => ⟨S1048576x64, .f32⟩
  | 16 => ⟨S_, .f32⟩
  | 17 => ⟨S1048576x64, .f32⟩
  | 18 => ⟨S1048576x64, .f32⟩
  | 19 => ⟨S1048576x16, .f32⟩
  | 20 => ⟨S1x16, .f32⟩
  | 21 => ⟨S1048576x16, .f32⟩
  | 22 => ⟨S1048576x16, .f32⟩
  | 23 => ⟨S1048576x1, .f32⟩
  | 24 => ⟨S1048576, .f32⟩
  | 25 => ⟨S1048576x1, .f32⟩
  | 26 => ⟨S1048576, .f32⟩
  | 27 => ⟨S1048576x1, .f32⟩
  | 28 => ⟨S1048576, .f32⟩
  | 29 => ⟨S1048576, .f32⟩
  | 30 => ⟨S1048576, .f32⟩
  | 31 => ⟨S1048576, .f32⟩
  | 32 => ⟨S_, .f32⟩
  | 33 => ⟨S1048576, .f32⟩
  | 34 => ⟨S_, .f32⟩
  | 35 => ⟨S1048576, .f32⟩
  | 36 => ⟨S1048576, .f32⟩
  | 37 => ⟨S_, .f32⟩
  | 38 => ⟨S1048576, .f32⟩
  | 39 => ⟨S1048576, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S_, .f32⟩
  | 48 => ⟨S1048576, .f32⟩
  | 49 => ⟨S1048576, .f32⟩
  | 50 => ⟨S1048576, .f32⟩
  | 51 => ⟨S_, .f32⟩
  | 52 => ⟨S1048576, .f32⟩
  | 53 => ⟨S1048576, .f32⟩
  | 54 => ⟨S_, .f32⟩
  | 55 => ⟨S1048576, .f32⟩
  | 56 => ⟨S1048576, .f32⟩
  | 57 => ⟨S_, .f32⟩
  | 58 => ⟨S1048576, .f32⟩
  | 59 => ⟨S1048576, .f32⟩
  | 60 => ⟨S1048576, .f32⟩
  | 61 => ⟨S1048576, .f32⟩
  | 62 => ⟨S_, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S_, .f32⟩
  | 69 => ⟨S1048576, .f32⟩
  | 70 => ⟨S1048576, .f32⟩
  | 71 => ⟨S1048576, .f32⟩
  | 72 => ⟨S1048576, .f32⟩
  | 73 => ⟨S_, .f32⟩
  | 74 => ⟨S1048576, .f32⟩
  | 75 => ⟨S1048576, .f32⟩
  | 76 => ⟨S1048576, .f32⟩
  | 77 => ⟨S1048576, .f32⟩
  | 78 => ⟨S_, .f32⟩
  | 79 => ⟨S1048576, .f32⟩
  | 80 => ⟨S1048576, .f32⟩
  | 81 => ⟨S_, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S1048576, .f32⟩
  | 88 => ⟨S_, .f32⟩
  | 89 => ⟨S1048576, .f32⟩
  | 90 => ⟨S1048576, .f32⟩
  | 91 => ⟨S_, .f32⟩
  | 92 => ⟨S1048576, .f32⟩
  | 93 => ⟨S1048576, .f32⟩
  | 94 => ⟨S_, .f32⟩
  | 95 => ⟨S1048576, .f32⟩
  | 96 => ⟨S1048576, .f32⟩
  | 97 => ⟨S1048576, .f32⟩
  | 98 => ⟨S_, .f32⟩
  | 99 => ⟨S1048576, .f32⟩
  | 100 => ⟨S1048576, .f32⟩
  | 101 => ⟨S_, .f32⟩
  | 102 => ⟨S1048576, .f32⟩
  | 103 => ⟨S1048576, .f32⟩
  | 104 => ⟨S_, .f32⟩
  | 105 => ⟨S1048576, .f32⟩
  | 106 => ⟨S1048576, .f32⟩
  | 107 => ⟨S1048576, .f32⟩
  | 108 => ⟨S_, .f32⟩
  | 109 => ⟨S1048576, .f32⟩
  | 110 => ⟨S1048576, .f32⟩
  | 111 => ⟨S1048576, .f32⟩
  | 112 => ⟨S1048576, .f32⟩
  | 113 => ⟨S_, .f32⟩
  | 114 => ⟨S1048576, .f32⟩
  | 115 => ⟨S1048576, .f32⟩
  | 116 => ⟨S_, .f32⟩
  | 117 => ⟨S1048576, .f32⟩
  | 118 => ⟨S1048576, .f32⟩
  | 119 => ⟨S1048576, .f32⟩
  | 120 => ⟨S1048576, .f32⟩
  | 121 => ⟨S1048576x1, .f32⟩
  | 122 => ⟨S1048576x1, .f32⟩
  | 123 => ⟨S1048576x1, .f32⟩
  | 124 => ⟨S1048576x1, .f32⟩
  | 125 => ⟨S1048576x1, .f32⟩
  | 126 => ⟨S1048576x1, .f32⟩
  | 127 => ⟨S1048576x1, .f32⟩
  | _ => ⟨S1048576x32, .f32⟩

abbrev hbmTy0_1 (i : Nat) : BufTy := match i % 128 with
  | 0 => ⟨S1048576x1, .f32⟩
  | 1 => ⟨S1048576x1, .f32⟩
  | 2 => ⟨S1048576x1, .f32⟩
  | 3 => ⟨S1048576x1, .f32⟩
  | 4 => ⟨S1048576x1, .f32⟩
  | 5 => ⟨S1048576x1, .f32⟩
  | 6 => ⟨S1048576x1, .f32⟩
  | 7 => ⟨S1048576x1, .f32⟩
  | 8 => ⟨S1048576x1, .f32⟩
  | 9 => ⟨S1048576x16, .f32⟩
  | 10 => ⟨S1048576x32, .f32⟩
  | 11 => ⟨S1048576x64, .f32⟩
  | 12 => ⟨S1x64, .f32⟩
  | 13 => ⟨S1048576x64, .f32⟩
  | 14 => ⟨S1048576x64, .f32⟩
  | 15 => ⟨S_, .f32⟩
  | 16 => ⟨S1048576x64, .f32⟩
  | 17 => ⟨S1048576x64, .f32⟩
  | 18 => ⟨S1048576x64, .f32⟩
  | 19 => ⟨S1x64, .f32⟩
  | 20 => ⟨S1048576x64, .f32⟩
  | 21 => ⟨S1048576x64, .f32⟩
  | 22 => ⟨S_, .f32⟩
  | 23 => ⟨S1048576x64, .f32⟩
  | 24 => ⟨S1048576x64, .f32⟩
  | 25 => ⟨S1048576x3, .f32⟩
  | 26 => ⟨S1x3, .f32⟩
  | 27 => ⟨S1048576x3, .f32⟩
  | 28 => ⟨S1048576x3, .f32⟩
  | 29 => ⟨S1048576x3, .f32⟩
  | 30 => ⟨S1048576x3, .f32⟩
  | 31 => ⟨S_, .f32⟩
  | 32 => ⟨S1048576x3, .f32⟩
  | 33 => ⟨S1048576x3, .f32⟩
  | 34 => ⟨S_, .f32⟩
  | 35 => ⟨S1048576x3, .f32⟩
  | 36 => ⟨S1048576x3, .f32⟩
  | _ => ⟨S1048576x32, .f32⟩

abbrev hbmTy (i : Nat) : BufTy := match i / 128 with
  | 0 => hbmTy0_0 i
  | 1 => hbmTy0_1 i
  | _ => ⟨S1048576x32, .f32⟩

abbrev bufTy : (tb : Table) → Fin (tcTables nBuf tb) → BufTy
  | .hbm, ⟨i, _⟩ => hbmTy i
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_cst_0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_8 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_15 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_v61 : Ref sig .tc := ⟨.hbm, 93, rfl⟩
abbrev main_cst_17 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_cst_20 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_21 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_22 : Ref sig .tc := ⟨.hbm, 113, rfl⟩
abbrev main_v76 : Ref sig .tc := ⟨.hbm, 114, rfl⟩
abbrev main_v77 : Ref sig .tc := ⟨.hbm, 115, rfl⟩
abbrev main_cst_23 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_call1_cst : Ref sig .tc := ⟨.hbm, 143, rfl⟩
abbrev main_call1_v0 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call2_cst : Ref sig .tc := ⟨.hbm, 150, rfl⟩
abbrev main_call2_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_v117 : Ref sig .tc := ⟨.hbm, 161, rfl⟩
abbrev main_cst_25 : Ref sig .tc := ⟨.hbm, 162, rfl⟩
abbrev main_v118 : Ref sig .tc := ⟨.hbm, 163, rfl⟩
abbrev main_v119 : Ref sig .tc := ⟨.hbm, 164, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1 : Shape.Concatenates [S1048576x1, S1048576x1, S1048576x1, S1048576x1, S1048576x1, S1048576x1, S1048576x1, S1048576x1, S1048576x1, S1048576x1, S1048576x1, S1048576x1, S1048576x1, S1048576x1, S1048576x1, S1048576x1] S1048576x16 1
  concatenates_S1048576x16_S1048576x16_S1048576x32_d1 : Shape.Concatenates [S1048576x16, S1048576x16] S1048576x32 1
  bcast_S3_S1x3_1 : S3.BroadcastsInDim S1x3 (![1] : Fin 1 → Fin S1x3.rank)
  bcast_S1x3_S1048576x3_0_1 : S1x3.BroadcastsInDim S1048576x3 (![0, 1] : Fin 2 → Fin S1048576x3.rank)
  bcast_S_S1048576x3 : S_.BroadcastsInDim S1048576x3 (![] : Fin 0 → Fin S1048576x3.rank)
  dot_S1048576x32_S32x64_S1048576x64_1_0_0_1_n_n_wf : DotDims.WF S1048576x32 S32x64 S1048576x64 [1] [0] [0] [1] [] []
  dot_S1048576x64_S64x16_S1048576x16_1_0_0_1_n_n_wf : DotDims.WF S1048576x64 S64x16 S1048576x16 [1] [0] [0] [1] [] []
  dot_S1048576x64_S64x64_S1048576x64_1_0_0_1_n_n_wf : DotDims.WF S1048576x64 S64x64 S1048576x64 [1] [0] [0] [1] [] []
  dot_S1048576x64_S64x3_S1048576x3_1_0_0_1_n_n_wf : DotDims.WF S1048576x64 S64x3 S1048576x3 [1] [0] [0] [1] [] []

variable [Facts₀]

def dot_S1048576x32_S32x64_S1048576x64_1_0_0_1_n_n : DotDims S1048576x32 S32x64 S1048576x64 where
  lhsContracting := [1]
  rhsContracting := [0]
  lhsNonContracting := [0]
  rhsNonContracting := [1]
  lhsBatch := []
  rhsBatch := []
  wf := dot_S1048576x32_S32x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x3_S1048576x3_1_0_0_1_n_n : DotDims S1048576x64 S64x3 S1048576x3 where
  lhsContracting := [1]
  rhsContracting := [0]
  lhsNonContracting := [0]
  rhsNonContracting := [1]
  lhsBatch := []
  rhsBatch := []
  wf := dot_S1048576x64_S64x3_S1048576x3_1_0_0_1_n_n_wf

class Facts : Prop extends Facts₀ where

variable [Facts]
-- ==== Proof.KerMatmul.lean ====
/-
  The kernel's four matrix products over the extended reals, read at an entry: a product of a `[1024, K]` block with a
  `[K, M]` weight matrix into a zero accumulator is, at `(r, c)`, the sum over `k` of the block at `(r, k)` times the
  weights at `(k, c)`.
-/
import proofs.«101879_j76673756168435_2_alg».proof.Proof.Gen.KernelIdeal
import Idealize.ShloMosaic.Lib.ValueIdx
import Idealize.ShloMosaic.PureOps.Ideal.Laws

noncomputable section

namespace Cert.KernelIdeal.Rows

open Cert.KernelIdeal Idealize.ShloMosaic Idealize.ShloMosaic.ValueIdx

/-- On the left operand's row axis the product's index map keeps the result's row. -/
theorem mm_32_64_l0 (i : S1024x64.Idx) (q : dot_S1024x32_S32x64_S1024x64_1_0_0_1_n_n.contr.Idx) : (dot_S1024x32_S32x64_S1024x64_1_0_0_1_n_n.lhsIdx i q 0).val = (i 0).val := by
  unfold DotDims.lhsIdx
  rw [dif_neg (show ¬(0 : Fin S1024x32.rank) ∈ dot_S1024x32_S32x64_S1024x64_1_0_0_1_n_n.lhsBatch by decide), dif_pos (show (0 : Fin S1024x32.rank) ∈ dot_S1024x32_S32x64_S1024x64_1_0_0_1_n_n.lhsNonContracting by decide)]
  rfl

/-- On the right operand's column axis it keeps the result's column. -/
theorem mm_32_64_r1 (i : S1024x64.Idx) (q : dot_S1024x32_S32x64_S1024x64_1_0_0_1_n_n.contr.Idx) : (dot_S1024x32_S32x64_S1024x64_1_0_0_1_n_n.rhsIdx i q 1).val = (i 1).val := by
  unfold DotDims.rhsIdx
  rw [dif_neg (show ¬(1 : Fin S32x64.rank) ∈ dot_S1024x32_S32x64_S1024x64_1_0_0_1_n_n.rhsBatch by decide), dif_pos (show (1 : Fin S32x64.rank) ∈ dot_S1024x32_S32x64_S1024x64_1_0_0_1_n_n.rhsNonContracting by decide)]
  rfl

/-- The `[1024, 32] × [32, 64]` product into zeros at `(r, c)`: the sum over the 32 contracted positions. -/
theorem mm_32_64 {φ₁ φ₂ : FTy} (a : FVec Ideal S1024x32 φ₁) (b : FVec Ideal S32x64 φ₂) (r : Fin 1024) (c : Fin 64) :
    matmul dot_S1024x32_S32x64_S1024x64_1_0_0_1_n_n none a b (constant S1024x64 .f32 0x00000000#32) (ix2 r c) = ∑ k : Fin 32, a (ix2 r k) * b (ix2 k c) := by
  refine (Ideal.matmul_constant_zero_apply dot_S1024x32_S32x64_S1024x64_1_0_0_1_n_n none a b (ix2 r c)).trans ?_
  rw [← Equiv.sum_comp (ValueIdx.contrEquiv1 dot_S1024x32_S32x64_S1024x64_1_0_0_1_n_n 32 rfl rfl).symm]
  refine Finset.sum_congr rfl fun k _ => ?_
  have hk := ValueIdx.contrEquiv1_symm_val dot_S1024x32_S32x64_S1024x64_1_0_0_1_n_n 32 rfl rfl k
  have el : dot_S1024x32_S32x64_S1024x64_1_0_0_1_n_n.lhsIdx (ix2 r c) ((ValueIdx.contrEquiv1 dot_S1024x32_S32x64_S1024x64_1_0_0_1_n_n 32 rfl rfl).symm k) = ix2 r k := funext fun x => Fin.ext (by
    match x with
    | ⟨0, _⟩ => exact mm_32_64_l0 _ _
    | ⟨1, _⟩ => exact (dot_S1024x32_S32x64_S1024x64_1_0_0_1_n_n.lhsIdx_val_of_single rfl _ _).trans hk)
  have er : dot_S1024x32_S32x64_S1024x64_1_0_0_1_n_n.rhsIdx (ix2 r c) ((ValueIdx.contrEquiv1 dot_S1024x32_S32x64_S1024x64_1_0_0_1_n_n 32 rfl rfl).symm k) = ix2 k c := funext fun x => Fin.ext (by
    match x with
    | ⟨0, _⟩ => exact (dot_S1024x32_S32x64_S1024x64_1_0_0_1_n_n.rhsIdx_val_of_single rfl _ _).trans hk
    | ⟨1, _⟩ => exact mm_32_64_r1 _ _)
  rw [el, er]

/-- On the left operand's row axis the product's index map keeps the result's row. -/
theorem mm_64_16_l0 (i : S1024x16.Idx) (q : dot_S1024x64_S64x16_S1024x16_1_0_0_1_n_n.contr.Idx) : (dot_S1024x64_S64x16_S1024x16_1_0_0_1_n_n.lhsIdx i q 0).val = (i 0).val := by
  unfold DotDims.lhsIdx
  rw [dif_neg (show ¬(0 : Fin S1024x64.rank) ∈ dot_S1024x64_S64x16_S1024x16_1_0_0_1_n_n.lhsBatch by decide), dif_pos (show (0 : Fin S1024x64.rank) ∈ dot_S1024x64_S64x16_S1024x16_1_0_0_1_n_n.lhsNonContracting by decide)]
  rfl

/-- On the right operand's column axis it keeps the result's column. -/
theorem mm_64_16_r1 (i : S1024x16.Idx) (q : dot_S1024x64_S64x16_S1024x16_1_0_0_1_n_n.contr.Idx) : (dot_S1024x64_S64x16_S1024x16_1_0_0_1_n_n.rhsIdx i q 1).val = (i 1).val := by
  unfold DotDims.rhsIdx
  rw [dif_neg (show ¬(1 : Fin S64x16.rank) ∈ dot_S1024x64_S64x16_S1024x16_1_0_0_1_n_n.rhsBatch by decide), dif_pos (show (1 : Fin S64x16.rank) ∈ dot_S1024x64_S64x16_S1024x16_1_0_0_1_n_n.rhsNonContracting by decide)]
  rfl

/-- The `[1024, 64] × [64, 16]` product into zeros at `(r, c)`: the sum over the 64 contracted positions. -/
theorem mm_64_16 {φ₁ φ₂ : FTy} (a : FVec Ideal S1024x64 φ₁) (b : FVec Ideal S64x16 φ₂) (r : Fin 1024) (c : Fin 16) :
    matmul dot_S1024x64_S64x16_S1024x16_1_0_0_1_n_n none a b (constant S1024x16 .f32 0x00000000#32) (ix2 r c) = ∑ k : Fin 64, a (ix2 r k) * b (ix2 k c) := by
  refine (Ideal.matmul_constant_zero_apply dot_S1024x64_S64x16_S1024x16_1_0_0_1_n_n none a b (ix2 r c)).trans ?_
  rw [← Equiv.sum_comp (ValueIdx.contrEquiv1 dot_S1024x64_S64x16_S1024x16_1_0_0_1_n_n 64 rfl rfl).symm]
  refine Finset.sum_congr rfl fun k _ => ?_
  have hk := ValueIdx.contrEquiv1_symm_val dot_S1024x64_S64x16_S1024x16_1_0_0_1_n_n 64 rfl rfl k
  have el : dot_S1024x64_S64x16_S1024x16_1_0_0_1_n_n.lhsIdx (ix2 r c) ((ValueIdx.contrEquiv1 dot_S1024x64_S64x16_S1024x16_1_0_0_1_n_n 64 rfl rfl).symm k) = ix2 r k := funext fun x => Fin.ext (by
    match x with
    | ⟨0, _⟩ => exact mm_64_16_l0 _ _
    | ⟨1, _⟩ => exact (dot_S1024x64_S64x16_S1024x16_1_0_0_1_n_n.lhsIdx_val_of_single rfl _ _).trans hk)
  have er : dot_S1024x64_S64x16_S1024x16_1_0_0_1_n_n.rhsIdx (ix2 r c) ((ValueIdx.contrEquiv1 dot_S1024x64_S64x16_S1024x16_1_0_0_1_n_n 64 rfl rfl).symm k) = ix2 k c := funext fun x => Fin.ext (by
    match x with
    | ⟨0, _⟩ => exact (dot_S1024x64_S64x16_S1024x16_1_0_0_1_n_n.rhsIdx_val_of_single rfl _ _).trans hk
    | ⟨1, _⟩ => exact mm_64_16_r1 _ _)
  rw [el, er]

/-- On the left operand's row axis the product's index map keeps the result's row. -/
theorem mm_64_64_l0 (i : S1024x64.Idx) (q : dot_S1024x64_S64x64_S1024x64_1_0_0_1_n_n.contr.Idx) : (dot_S1024x64_S64x64_S1024x64_1_0_0_1_n_n.lhsIdx i q 0).val = (i 0).val := by
  unfold DotDims.lhsIdx
  rw [dif_neg (show ¬(0 : Fin S1024x64.rank) ∈ dot_S1024x64_S64x64_S1024x64_1_0_0_1_n_n.lhsBatch by decide), dif_pos (show (0 : Fin S1024x64.rank) ∈ dot_S1024x64_S64x64_S1024x64_1_0_0_1_n_n.lhsNonContracting by decide)]
  rfl

/-- On the right operand's column axis it keeps the result's column. -/
theorem mm_64_64_r1 (i : S1024x64.Idx) (q : dot_S1024x64_S64x64_S1024x64_1_0_0_1_n_n.contr.Idx) : (dot_S1024x64_S64x64_S1024x64_1_0_0_1_n_n.rhsIdx i q 1).val = (i 1).val := by
  unfold DotDims.rhsIdx
  rw [dif_neg (show ¬(1 : Fin S64x64.rank) ∈ dot_S1024x64_S64x64_S1024x64_1_0_0_1_n_n.rhsBatch by decide), dif_pos (show (1 : Fin S64x64.rank) ∈ dot_S1024x64_S64x64_S1024x64_1_0_0_1_n_n.rhsNonContracting by decide)]
  rfl

/-- The `[1024, 64] × [64, 64]` product into zeros at `(r, c)`: the sum over the 64 contracted positions. -/
theorem mm_64_64 {φ₁ φ₂ : FTy} (a : FVec Ideal S1024x64 φ₁) (b : FVec Ideal S64x64 φ₂) (r : Fin 1024) (c : Fin 64) :
    matmul dot_S1024x64_S64x64_S1024x64_1_0_0_1_n_n none a b (constant S1024x64 .f32 0x00000000#32) (ix2 r c) = ∑ k : Fin 64, a (ix2 r k) * b (ix2 k c) := by
  refine (Ideal.matmul_constant_zero_apply dot_S1024x64_S64x64_S1024x64_1_0_0_1_n_n none a b (ix2 r c)).trans ?_
  rw [← Equiv.sum_comp (ValueIdx.contrEquiv1 dot_S1024x64_S64x64_S1024x64_1_0_0_1_n_n 64 rfl rfl).symm]
  refine Finset.sum_congr rfl fun k _ => ?_
  have hk := ValueIdx.contrEquiv1_symm_val dot_S1024x64_S64x64_S1024x64_1_0_0_1_n_n 64 rfl rfl k
  have el : dot_S1024x64_S64x64_S1024x64_1_0_0_1_n_n.lhsIdx (ix2 r c) ((ValueIdx.contrEquiv1 dot_S1024x64_S64x64_S1024x64_1_0_0_1_n_n 64 rfl rfl).symm k) = ix2 r k := funext fun x => Fin.ext (by
    match x with
    | ⟨0, _⟩ => exact mm_64_64_l0 _ _
    | ⟨1, _⟩ => exact (dot_S1024x64_S64x64_S1024x64_1_0_0_1_n_n.lhsIdx_val_of_single rfl _ _).trans hk)
  have er : dot_S1024x64_S64x64_S1024x64_1_0_0_1_n_n.rhsIdx (ix2 r c) ((ValueIdx.contrEquiv1 dot_S1024x64_S64x64_S1024x64_1_0_0_1_n_n 64 rfl rfl).symm k) = ix2 k c := funext fun x => Fin.ext (by
    match x with
    | ⟨0, _⟩ => exact (dot_S1024x64_S64x64_S1024x64_1_0_0_1_n_n.rhsIdx_val_of_single rfl _ _).trans hk
    | ⟨1, _⟩ => exact mm_64_64_r1 _ _)
  rw [el, er]

/-- On the left operand's row axis the product's index map keeps the result's row. -/
theorem mm_64_3_l0 (i : S1024x3.Idx) (q : dot_S1024x64_S64x3_S1024x3_1_0_0_1_n_n.contr.Idx) : (dot_S1024x64_S64x3_S1024x3_1_0_0_1_n_n.lhsIdx i q 0).val = (i 0).val := by
  unfold DotDims.lhsIdx
  rw [dif_neg (show ¬(0 : Fin S1024x64.rank) ∈ dot_S1024x64_S64x3_S1024x3_1_0_0_1_n_n.lhsBatch by decide), dif_pos (show (0 : Fin S1024x64.rank) ∈ dot_S1024x64_S64x3_S1024x3_1_0_0_1_n_n.lhsNonContracting by decide)]
  rfl

/-- On the right operand's column axis it keeps the result's column. -/
theorem mm_64_3_r1 (i : S1024x3.Idx) (q : dot_S1024x64_S64x3_S1024x3_1_0_0_1_n_n.contr.Idx) : (dot_S1024x64_S64x3_S1024x3_1_0_0_1_n_n.rhsIdx i q 1).val = (i 1).val := by
  unfold DotDims.rhsIdx
  rw [dif_neg (show ¬(1 : Fin S64x3.rank) ∈ dot_S1024x64_S64x3_S1024x3_1_0_0_1_n_n.rhsBatch by decide), dif_pos (show (1 : Fin S64x3.rank) ∈ dot_S1024x64_S64x3_S1024x3_1_0_0_1_n_n.rhsNonContracting by decide)]
  rfl

/-- The `[1024, 64] × [64, 3]` product into zeros at `(r, c)`: the sum over the 64 contracted positions. -/
theorem mm_64_3 {φ₁ φ₂ : FTy} (a : FVec Ideal S1024x64 φ₁) (b : FVec Ideal S64x3 φ₂) (r : Fin 1024) (c : Fin 3) :
    matmul dot_S1024x64_S64x3_S1024x3_1_0_0_1_n_n none a b (constant S1024x3 .f32 0x00000000#32) (ix2 r c) = ∑ k : Fin 64, a (ix2 r k) * b (ix2 k c) := by
  refine (Ideal.matmul_constant_zero_apply dot_S1024x64_S64x3_S1024x3_1_0_0_1_n_n none a b (ix2 r c)).trans ?_
  rw [← Equiv.sum_comp (ValueIdx.contrEquiv1 dot_S1024x64_S64x3_S1024x3_1_0_0_1_n_n 64 rfl rfl).symm]
  refine Finset.sum_congr rfl fun k _ => ?_
  have hk := ValueIdx.contrEquiv1_symm_val dot_S1024x64_S64x3_S1024x3_1_0_0_1_n_n 64 rfl rfl k
  have el : dot_S1024x64_S64x3_S1024x3_1_0_0_1_n_n.lhsIdx (ix2 r c) ((ValueIdx.contrEquiv1 dot_S1024x64_S64x3_S1024x3_1_0_0_1_n_n 64 rfl rfl).symm k) = ix2 r k := funext fun x => Fin.ext (by
    match x with
    | ⟨0, _⟩ => exact mm_64_3_l0 _ _
    | ⟨1, _⟩ => exact (dot_S1024x64_S64x3_S1024x3_1_0_0_1_n_n.lhsIdx_val_of_single rfl _ _).trans hk)
  have er : dot_S1024x64_S64x3_S1024x3_1_0_0_1_n_n.rhsIdx (ix2 r c) ((ValueIdx.contrEquiv1 dot_S1024x64_S64x3_S1024x3_1_0_0_1_n_n 64 rfl rfl).symm k) = ix2 k c := funext fun x => Fin.ext (by
    match x with
    | ⟨0, _⟩ => exact (dot_S1024x64_S64x3_S1024x3_1_0_0_1_n_n.rhsIdx_val_of_single rfl _ _).trans hk
    | ⟨1, _⟩ => exact mm_64_3_r1 _ _)
  rw [el, er]

end Cert.KernelIdeal.Rows

end
-- ==== Proof.Spec.lean ====
/-
  What the network computes on ONE row, over the extended reals, and the two result arrays as functions of the twelve
  argument arrays.

  A dense layer sends a row `x` of length `K` to the row `j ↦ (∑ k, x k · W (k, j)) + b j`. The density head is two dense
  layers with a rectifier `max · 0` between them. The direction `(x, y, z)` is encoded by the sixteen real spherical
  harmonics of degree below four, each a polynomial in `x, y, z` with float32 coefficients, multiplied out in a fixed
  order. The colour head joins the sixteen density features with the sixteen harmonics into a row of length 32 and applies
  three dense layers with rectifiers between them and the logistic function `v ↦ 1 / (1 + e^(-v))` at the end.
  Row `r` of each result depends only on row `r` of the positions and directions.
-/
import Idealize.ShloMosaic.PureOps.Ideal
import Idealize.ShloMosaic.Lib.ValueIdx

noncomputable section

namespace Cert.Mlp

open Idealize.ShloMosaic Idealize.ShloMosaic.ValueIdx

/-- The extended real a float32 bit pattern denotes. -/
abbrev lit (w : BitVec 32) : EReal := Ideal.ofBits .f32 w

/-- The rectifier: the larger of `v` and the float `+0.0`. -/
def relu (v : EReal) : EReal := max v (lit 0x00000000#32)

/-- A dense layer at output `j`: the row times column `j` of the weights, plus the bias at `j`. -/
def dense {K M : ℕ} (x : Fin K → EReal) (W : (⟨2, ![K, M]⟩ : Shape).Idx → EReal) (b : (⟨1, ![M]⟩ : Shape).Idx → EReal)
    (j : Fin M) : EReal :=
  (∑ k : Fin K, x k * W (ix2 k j)) + b (ix1 j)

/-- The sixteen spherical harmonics of the direction `(x, y, z)`, each product taken left to right. -/
def harmonics (x y z : EReal) : Fin 16 → EReal :=
  ![lit 0x3E906EBB#32,
    lit 0x3EFA2A1C#32 * y,
    lit 0x3EFA2A1C#32 * z,
    lit 0x3EFA2A1C#32 * x,
    lit 0x3F8BD8A1#32 * x * y,
    lit 0x3F8BD8A1#32 * y * z,
    lit 0x3F723881#32 * (z * z) - lit 0x3EA17B01#32,
    lit 0x3F8BD8A1#32 * x * z,
    lit 0x3F0BD8A1#32 * (x * x - y * y),
    lit 0x3F170D19#32 * y * (lit 0x40400000#32 * (x * x) - y * y),
    lit 0x4038FFC7#32 * x * y * z,
    lit 0x3EEA01E8#32 * y * (lit 0x40A00000#32 * (z * z) - lit 0x3F800000#32),
    lit 0x3EBF10F8#32 * z * (lit 0x40A00000#32 * (z * z) - lit 0x40400000#32),
    lit 0x3EEA01E8#32 * x * (lit 0x40A00000#32 * (z * z) - lit 0x3F800000#32),
    lit 0x3FB8FFC7#32 * z * (x * x - y * y),
    lit 0x3F170D19#32 * x * (x * x - lit 0x40400000#32 * (y * y))]

/-- Two rows of length sixteen joined into one of length thirty-two. -/
def join (a b : Fin 16 → EReal) (k : Fin 32) : EReal :=
  if h : k.val < 16 then a ⟨k.val, h⟩ else b ⟨k.val - 16, by have := k.isLt; omega⟩

section
variable (W1 : (⟨2, ![32, 64]⟩ : Shape).Idx → EReal) (b1 : (⟨1, ![64]⟩ : Shape).Idx → EReal)
  (W2 : (⟨2, ![64, 16]⟩ : Shape).Idx → EReal) (b2 : (⟨1, ![16]⟩ : Shape).Idx → EReal)
  (W3 : (⟨2, ![32, 64]⟩ : Shape).Idx → EReal) (b3 : (⟨1, ![64]⟩ : Shape).Idx → EReal)
  (W4 : (⟨2, ![64, 64]⟩ : Shape).Idx → EReal) (b4 : (⟨1, ![64]⟩ : Shape).Idx → EReal)
  (W5 : (⟨2, ![64, 3]⟩ : Shape).Idx → EReal) (b5 : (⟨1, ![3]⟩ : Shape).Idx → EReal)

/-- The density features of a position row. -/
def densityRow (pos : Fin 32 → EReal) : Fin 16 → EReal :=
  dense (fun k => relu (dense pos W1 b1 k)) W2 b2

/-- The first hidden row of the colour head. -/
def hidden1 (pos : Fin 32 → EReal) (x y z : EReal) : Fin 64 → EReal :=
  fun k => relu (dense (join (densityRow W1 b1 W2 b2 pos) (harmonics x y z)) W3 b3 k)

/-- The second hidden row of the colour head. -/
def hidden2 (pos : Fin 32 → EReal) (x y z : EReal) : Fin 64 → EReal :=
  fun k => relu (dense (hidden1 W1 b1 W2 b2 W3 b3 pos x y z) W4 b4 k)

/-- The colour of a position row and a direction. -/
def colorRow (pos : Fin 32 → EReal) (x y z : EReal) (j : Fin 3) : EReal :=
  Ideal.logistic (dense (hidden2 W1 b1 W2 b2 W3 b3 W4 b4 pos x y z) W5 b5 j)

/-- The density array: at `(r, q)`, feature `q` of position row `r`. -/
def density (P : (⟨2, ![1048576, 32]⟩ : Shape).Idx → EReal) : (⟨2, ![1048576, 16]⟩ : Shape).Idx → EReal :=
  fun i => densityRow W1 b1 W2 b2 (fun k => P (ix2 (i 0) k)) (i 1)

/-- The colour array: at `(r, j)`, channel `j` of the colour of position row `r` seen along direction row `r`. -/
def color (P : (⟨2, ![1048576, 32]⟩ : Shape).Idx → EReal) (D : (⟨2, ![1048576, 3]⟩ : Shape).Idx → EReal) :
    (⟨2, ![1048576, 3]⟩ : Shape).Idx → EReal :=
  fun i => colorRow W1 b1 W2 b2 W3 b3 W4 b4 W5 b5 (fun k => P (ix2 (i 0) k))
    (D (ix2 (i 0) (0 : Fin 3))) (D (ix2 (i 0) (1 : Fin 3))) (D (ix2 (i 0) (2 : Fin 3))) (i 1)

end

end Cert.Mlp

end
-- ==== Proof.LibRowForms.lean ====
/-
  Row forms of two-dimensional arrays read at an index, over any number of rows: a bias vector laid along every row, one
  column cut out of an array and flattened, sixteen one-column arrays joined side by side, and two arrays joined side by
  side. In each case the entry at row `r` depends only on row `r` of the operands. Two facts about tables of sixteen
  entries close the file.
-/
import Idealize.ShloMosaic.Lib.Pipeline.Value
import Idealize.ShloMosaic.Lib.ValueIdx

noncomputable section

namespace Cert.RowForms

open Idealize.ShloMosaic Idealize.ShloMosaic.ValueIdx

variable {α : Type}

/-- A length-`m` vector viewed as a `[1, m]` row and repeated down the `n` rows of an `[n, m]` array reads, at `(r, c)`,
    the vector at `c`. -/
theorem rowBias_apply {n m : ℕ} (b : (⟨1, ![m]⟩ : Shape).Idx → α)
    (h1 : (⟨1, ![m]⟩ : Shape).ShapeCasts ⟨2, ![1, m]⟩) (h2 : (⟨2, ![1, m]⟩ : Shape).Broadcasts ⟨2, ![n, m]⟩)
    (r : Fin n) (c : Fin m) :
    broadcastTo ⟨2, ![n, m]⟩ (shapeCast ⟨2, ![1, m]⟩ b h1) h2 (ix2 r c) = b (ix1 c) := by
  refine (broadcastTo_apply _ h2 (ix2 r c) (ix2 (0 : Fin 1) c) fun a => ?_).trans ?_
  · match a with
    | ⟨0, _⟩ =>
      show (0 : ℕ) = if (1 : ℕ) = 1 then 0 else r.val
      rw [if_pos rfl]
    | ⟨1, _⟩ =>
      show c.val = if m = 1 then 0 else c.val
      split
      · have := c.isLt; omega
      · rfl
  · refine shapeCast_apply b h1 _ (ix1 c) ?_
    rw [Shape.rowMajor_val_one, Shape.rowMajor_val_two]
    show c.val = 0 * m + c.val
    omega

/-- Column `o` cut out of an `[n, w]` array as an `[n, 1]` slice and flattened to a length-`n` vector reads, at `r`, the
    array at `(r, o)`. -/
theorem sliceCol_apply {n w : ℕ} (x : (⟨2, ![n, w]⟩ : Shape).Idx → α) (o : ℕ) (ho : o < w)
    (hs : (⟨2, ![n, w]⟩ : Shape).Slices ![0, o] ⟨2, ![n, 1]⟩)
    (hc : (⟨2, ![n, 1]⟩ : Shape).ShapeCasts ⟨1, ![n]⟩) (r : Fin n) :
    shapeCast ⟨1, ![n]⟩ (extractStridedSlice ⟨2, ![n, 1]⟩ ![0, o] x hs) hc (ix1 r) = x (ix2 r ⟨o, ho⟩) := by
  refine (shapeCast_apply _ hc (ix1 r) (ix2 r (0 : Fin 1)) ?_).trans ?_
  · rw [Shape.rowMajor_val_one, Shape.rowMajor_val_two]
    show r.val * 1 + 0 = r.val
    omega
  · refine extractStridedSlice_apply ![0, o] x hs _ (ix2 r ⟨o, ho⟩) fun a => ?_
    match a with
    | ⟨0, _⟩ => show r.val = 0 + r.val; omega
    | ⟨1, _⟩ => show o = o + 0; omega

/-- Sixteen `[n, 1]` columns joined side by side into an `[n, 16]` array read, at `(r, q)`, column `q` at row `r`. -/
theorem concatCols16_apply {n : ℕ} (f : Fin 16 → ((⟨2, ![n, 1]⟩ : Shape).Idx → α))
    (h : Shape.Concatenates ((List.ofFn fun k : Fin 16 => (⟨⟨2, ![n, 1]⟩, f k⟩ : (s : Shape) × (s.Idx → α))).map (·.1))
      ⟨2, ![n, 16]⟩ 1) (r : Fin n) (q : Fin 16) :
    concatenate ⟨2, ![n, 16]⟩ 1 (List.ofFn fun k : Fin 16 => (⟨⟨2, ![n, 1]⟩, f k⟩ : (s : Shape) × (s.Idx → α))) h (ix2 r q)
      = f q (ix2 r (0 : Fin 1)) :=
  concatenate_ofFn_unit_apply (t := ⟨2, ![n, 16]⟩) (s₁ := ⟨2, ![n, 1]⟩) 1 f h rfl rfl (ix2 r q) q rfl (ix2 r (0 : Fin 1))
    (fun b hb => by
      match b with
      | ⟨0, _⟩ => rfl
      | ⟨1, _⟩ => exact absurd rfl hb)

/-- An `[n, a]` array and an `[n, b]` array joined side by side read, at a column below `a`, the first array there. -/
theorem concatPair_apply_left {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : k.val < a) :
    concatenate ⟨2, ![n, c]⟩ 1 [⟨⟨2, ![n, a]⟩, x₁⟩, ⟨⟨2, ![n, b]⟩, x₂⟩] h (ix2 r k) = x₁ (ix2 r ⟨k.val, hk⟩) :=
  concatenate_pair_apply_left (t := ⟨2, ![n, c]⟩) (s₁ := ⟨2, ![n, a]⟩) (s₂ := ⟨2, ![n, b]⟩) 1 x₁ x₂ h (ix2 r k) rfl
    (ix2 r ⟨k.val, hk⟩) (fun d => by
      match d with
      | ⟨0, _⟩ => rfl
      | ⟨1, _⟩ => rfl)

/-- and, at a column from `a` on, the second array at that column less `a`. -/
theorem concatPair_apply_right {n a b c : ℕ} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (k : Fin c) (hk : a ≤ k.val)
    (hb : k.val - a < b) :
    concatenate ⟨2, ![n, c]⟩ 1 [⟨⟨2, ![n, a]⟩, x₁⟩, ⟨⟨2, ![n, b]⟩, x₂⟩] h (ix2 r k) = x₂ (ix2 r ⟨k.val - a, hb⟩) :=
  concatenate_pair_apply_right (t := ⟨2, ![n, c]⟩) (s₁ := ⟨2, ![n, a]⟩) (s₂ := ⟨2, ![n, b]⟩) 1 x₁ x₂ h (ix2 r k) rfl rfl
    (ix2 r ⟨k.val - a, hb⟩) (fun d hd => by
      match d with
      | ⟨0, _⟩ => rfl
      | ⟨1, _⟩ => exact absurd rfl hd)
    (by show k.val - a + a = k.val; omega)

/-- Sixteen functions tabulated and then applied at one point are the table of their values there. -/
theorem eval16 {β γ : Type} (w0 w1 w2 w3 w4 w5 w6 w7 w8 w9 w10 w11 w12 w13 w14 w15 : β → γ) (i : β) (q : Fin 16) :
    (![w0, w1, w2, w3, w4, w5, w6, w7, w8, w9, w10, w11, w12, w13, w14, w15] q) i = ![w0 i, w1 i, w2 i, w3 i, w4 i, w5 i, w6 i, w7 i, w8 i, w9 i, w10 i, w11 i, w12 i, w13 i, w14 i, w15 i] q := by
  fin_cases q <;> rfl

/-- Two tables of sixteen entries that agree entry by entry are equal. -/
theorem ext16 {γ : Type} (a b : Fin 16 → γ) (h0 : a 0 = b 0) (h1 : a 1 = b 1) (h2 : a 2 = b 2) (h3 : a 3 = b 3) (h4 : a 4 = b 4) (h5 : a 5 = b 5) (h6 : a 6 = b 6) (h7 : a 7 = b 7) (h8 : a 8 = b 8) (h9 : a 9 = b 9) (h10 : a 10 = b 10) (h11 : a 11 = b 11) (h12 : a 12 = b 12) (h13 : a 13 = b 13) (h14 : a 14 = b 14) (h15 : a 15 = b 15) : a = b := by
  funext q
  fin_cases q
  exacts [h0, h1, h2, h3, h4, h5, h6, h7, h8, h9, h10, h11, h12, h13, h14, h15]

end Cert.RowForms

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.KerRows.lean ====
/-
  One grid point's arithmetic read row by row. The block of density features a point stores is, at `(p, q)`, feature `q` of
  the block's position row `p`; the block of colours is, at `(p, j)`, channel `j` of the colour of position row `p` seen
  along direction row `p`. Each matrix product is a sum over the contracted position, each bias is laid along the rows,
  the direction's three columns are cut out and flattened, the sixteen harmonics are polynomials of those columns taken
  entry by entry and stacked side by side, and the density features are joined to their left.
-/
import proofs.«101879_j76673756168435_2_alg».proof.Proof.Gen.KernelIdeal.Skeleton
import proofs.«101879_j76673756168435_2_alg».proof.Proof.KerMatmul
import proofs.«101879_j76673756168435_2_alg».proof.Proof.Spec
import proofs.«101879_j76673756168435_2_alg».proof.Proof.LibRowForms
import proofs.«101879_j76673756168435_2_alg».proof.Proof.LibKeepdims

noncomputable section

namespace Cert.KernelIdeal.Rows

open Cert.KernelIdeal Cert.KernelIdeal.Gen Idealize.ShloMosaic Idealize.ShloMosaic.ValueIdx Cert.Mlp Cert.RowForms

/-! ## The density features -/

/-- The density block at `(p, q)`: two dense layers, rectified between, of position row `p`. -/
theorem pay2_apply (v0 : Vec Ideal S1024x32 .f32) (v2 : Vec Ideal S32x64 .f32) (v5 : Vec Ideal S64 .f32)
    (v12 : Vec Ideal S64x16 .f32) (v15 : Vec Ideal S16 .f32) (p : Fin 1024) (q : Fin 16) :
    k0_pay2 v0 v2 v5 v12 v15 (ix2 p q) = densityRow v2 v5 v12 v15 (fun k => v0 (ix2 p k)) q := by
  simp only [k0_pay2, densityRow, dense, relu, addf_apply, mm_64_16, mm_32_64, rowBias_apply, truncf_apply, maximumf_apply,
    broadcast_apply]
  rfl

/-! ## The direction's columns -/

theorem pay3_apply (d : Vec Ideal S1024x3 .f32) (p : Fin 1024) : k0_pay3 d (ix1 p) = d (ix2 p (0 : Fin 3)) :=
  sliceCol_apply d 0 (by decide) slices_S1024x3_o0_0_S1024x1 shapeCasts_S1024x1_S1024 p

theorem pay4_apply (d : Vec Ideal S1024x3 .f32) (p : Fin 1024) : k0_pay4 d (ix1 p) = d (ix2 p (1 : Fin 3)) :=
  sliceCol_apply d 1 (by decide) slices_S1024x3_o0_1_S1024x1 shapeCasts_S1024x1_S1024 p

theorem pay5_apply (d : Vec Ideal S1024x3 .f32) (p : Fin 1024) : k0_pay5 d (ix1 p) = d (ix2 p (2 : Fin 3)) :=
  sliceCol_apply d 2 (by decide) slices_S1024x3_o0_2_S1024x1 shapeCasts_S1024x1_S1024 p

/-! ## Sixteen vectors stacked side by side, and the density block joined to their left -/

/-- Sixteen length-1024 vectors, each viewed as a column, joined side by side: at `(p, q)`, vector `q` at `p`. -/
theorem stack16_apply (w0 w1 w2 w3 w4 w5 w6 w7 w8 w9 w10 w11 w12 w13 w14 w15 : FVec Ideal S1024 .f32) (p : Fin 1024) (q : Fin 16) :
    concatenate S1024x16 1 [⟨S1024x1, shapeCast S1024x1 w0 shapeCasts_S1024_S1024x1⟩, ⟨S1024x1, shapeCast S1024x1 w1 shapeCasts_S1024_S1024x1⟩, ⟨S1024x1, shapeCast S1024x1 w2 shapeCasts_S1024_S1024x1⟩, ⟨S1024x1, shapeCast S1024x1 w3 shapeCasts_S1024_S1024x1⟩, ⟨S1024x1, shapeCast S1024x1 w4 shapeCasts_S1024_S1024x1⟩, ⟨S1024x1, shapeCast S1024x1 w5 shapeCasts_S1024_S1024x1⟩, ⟨S1024x1, shapeCast S1024x1 w6 shapeCasts_S1024_S1024x1⟩, ⟨S1024x1, shapeCast S1024x1 w7 shapeCasts_S1024_S1024x1⟩, ⟨S1024x1, shapeCast S1024x1 w8 shapeCasts_S1024_S1024x1⟩, ⟨S1024x1, shapeCast S1024x1 w9 shapeCasts_S1024_S1024x1⟩, ⟨S1024x1, shapeCast S1024x1 w10 shapeCasts_S1024_S1024x1⟩, ⟨S1024x1, shapeCast S1024x1 w11 shapeCasts_S1024_S1024x1⟩, ⟨S1024x1, shapeCast S1024x1 w12 shapeCasts_S1024_S1024x1⟩, ⟨S1024x1, shapeCast S1024x1 w13 shapeCasts_S1024_S1024x1⟩, ⟨S1024x1, shapeCast S1024x1 w14 shapeCasts_S1024_S1024x1⟩, ⟨S1024x1, shapeCast S1024x1 w15 shapeCasts_S1024_S1024x1⟩]
      concatenates_S1024x1_S1024x1_S1024x1_S1024x1_S1024x1_S1024x1_S1024x1_S1024x1_S1024x1_S1024x1_S1024x1_S1024x1_S1024x1_S1024x1_S1024x1_S1024x1_S1024x16_d1 (ix2 p q)
      = ![w0 (ix1 p), w1 (ix1 p), w2 (ix1 p), w3 (ix1 p), w4 (ix1 p), w5 (ix1 p), w6 (ix1 p), w7 (ix1 p), w8 (ix1 p), w9 (ix1 p), w10 (ix1 p), w11 (ix1 p), w12 (ix1 p), w13 (ix1 p), w14 (ix1 p), w15 (ix1 p)] q := by
  refine (concatCols16_apply (n := 1024) (fun k => shapeCast S1024x1 (![w0, w1, w2, w3, w4, w5, w6, w7, w8, w9, w10, w11, w12, w13, w14, w15] k) shapeCasts_S1024_S1024x1)
    concatenates_S1024x1_S1024x1_S1024x1_S1024x1_S1024x1_S1024x1_S1024x1_S1024x1_S1024x1_S1024x1_S1024x1_S1024x1_S1024x1_S1024x1_S1024x1_S1024x1_S1024x16_d1 p q).trans ?_
  refine (Cert.Keepdims.shapeCast_a_a1_apply _ _ p 0).trans ?_
  exact eval16 w0 w1 w2 w3 w4 w5 w6 w7 w8 w9 w10 w11 w12 w13 w14 w15 (ix1 p) q

/-- The `[1024, 16]` block `a` joined to the left of the `[1024, 16]` block `b`: at `(p, k)`, row `p` of `a` joined with
    row `p` of `b`, at `k`. -/
theorem joinBlocks_apply (a b : FVec Ideal S1024x16 .f32) (p : Fin 1024) (k : Fin 32) :
    concatenate S1024x32 1 [⟨S1024x16, a⟩, ⟨S1024x16, b⟩] concatenates_S1024x16_S1024x16_S1024x32_d1 (ix2 p k)
      = join (fun j => a (ix2 p j)) (fun j => b (ix2 p j)) k := by
  unfold join
  split
  · next h => exact concatPair_apply_left a b concatenates_S1024x16_S1024x16_S1024x32_d1 p k h
  · next h => exact concatPair_apply_right a b concatenates_S1024x16_S1024x16_S1024x32_d1 p k (by omega) _

end Cert.KernelIdeal.Rows

end
-- ==== Proof.KerColor.lean ====
/-
  The colour block of one grid point read row by row: at `(p, j)`, channel `j` of the colour of the block's position row
  `p` seen along its direction row `p`. The first colour layer's input row is the density row joined with the sixteen
  harmonics of the direction; two more dense layers follow, rectified between, and the logistic function closes.
-/
import proofs.«101879_j76673756168435_2_alg».proof.Proof.KerRows

noncomputable section

namespace Cert.KernelIdeal.Rows

open Cert.KernelIdeal Cert.KernelIdeal.Gen Idealize.ShloMosaic Idealize.ShloMosaic.ValueIdx Cert.Mlp Cert.RowForms

/-- The logistic function is taken entry by entry. -/
theorem logistic_apply {s : Shape} {φ : FTy} (a : FVec Ideal s φ) (i : s.Idx) : logistic a i = Ideal.logistic (a i) := rfl

/-- The last hidden layer's bias laid along the rows. -/
theorem pay26_apply (v126 : Vec Ideal S64 .f32) (p : Fin 1024) (c : Fin 64) : k0_pay26 v126 (ix2 p c) = v126 (ix1 c) :=
  rowBias_apply v126 shapeCasts_S64_S1x64 broadcasts_S1x64_S1024x64 p c

/-- The second colour layer before its bias, at `(p, c)`: the first layer's rectified row — a dense layer of the density
    row joined with the sixteen stacked vectors' entries at `p` — times column `c` of the second layer's weights. -/
theorem pay25_apply (v18 : FVec Ideal S1024x16 .f32) (v22 v26 v27 v28 v30 v32 v34 v36 v39 v42 v46 v49 v52 v58 v62 v69 v76 v78 v80 : FVec Ideal S1024 .f32)
    (cst_34 : Ideal .f32) (v113 : Vec Ideal S32x64 .f32) (v116 : Vec Ideal S64 .f32) (v123 : Vec Ideal S64x64 .f32)
    (p : Fin 1024) (c : Fin 64) :
    k0_pay25 v18 v22 v26 v27 v28 v30 v32 v34 v36 v39 v42 v46 v49 v52 v58 v62 v69 v76 v78 v80 cst_34 v113 v116 v123 (ix2 p c)
      = ∑ k : Fin 64, relu (dense (join (fun j => v18 (ix2 p j))
          ![v30 (ix1 p),
            v32 (ix1 p),
            v34 (ix1 p),
            v36 (ix1 p),
            v39 (ix1 p),
            v42 (ix1 p),
            v46 (ix1 p),
            v49 (ix1 p),
            v52 (ix1 p),
            v58 (ix1 p),
            v62 (ix1 p),
            v69 (ix1 p),
            v76 (ix1 p),
            v78 (ix1 p) * (v80 (ix1 p) - cst_34),
            lit 0x3FB8FFC7#32 * v26 (ix1 p) * (v27 (ix1 p) - v28 (ix1 p)),
            lit 0x3F170D19#32 * v22 (ix1 p) * (v27 (ix1 p) - lit 0x40400000#32 * v28 (ix1 p))]) v113 v116 k) * v123 (ix2 k c) := by
  simp only [k0_pay25, relu, dense, mm_64_64, mm_32_64, truncf_apply, maximumf_apply, addf_apply, mulf_apply, subf_apply, rowBias_apply,
    broadcast_apply, joinBlocks_apply, stack16_apply]
  rfl

/-- The colour block from the second layer's two summands, at `(p, j)`. -/
theorem pay1_apply (v125 v128 : FVec Ideal S1024x64 .f32) (v133 : Vec Ideal S64x3 .f32) (v136 : Vec Ideal S3 .f32)
    (p : Fin 1024) (j : Fin 3) :
    k0_pay1 v125 v128 v133 v136 (ix2 p j)
      = Ideal.logistic (dense (fun k => relu (v125 (ix2 p k) + v128 (ix2 p k))) v133 v136 j) := by
  simp only [k0_pay1, relu, dense, logistic_apply, mm_64_3, truncf_apply, maximumf_apply, addf_apply, rowBias_apply, broadcast_apply]
  rfl

/-! ## The sixteen harmonics of direction row `p` -/

theorem kcol0 (x1 : Vec Ideal S1024x3 .f32) (p : Fin 1024) :
    (k0_pay9 (F := Ideal)) (ix1 p) = harmonics (x1 (ix2 p (0 : Fin 3))) (x1 (ix2 p (1 : Fin 3))) (x1 (ix2 p (2 : Fin 3))) 0 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol1 (x1 : Vec Ideal S1024x3 .f32) (p : Fin 1024) :
    (k0_pay10 x1) (ix1 p) = harmonics (x1 (ix2 p (0 : Fin 3))) (x1 (ix2 p (1 : Fin 3))) (x1 (ix2 p (2 : Fin 3))) 1 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol2 (x1 : Vec Ideal S1024x3 .f32) (p : Fin 1024) :
    (k0_pay11 x1) (ix1 p) = harmonics (x1 (ix2 p (0 : Fin 3))) (x1 (ix2 p (1 : Fin 3))) (x1 (ix2 p (2 : Fin 3))) 2 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol3 (x1 : Vec Ideal S1024x3 .f32) (p : Fin 1024) :
    (k0_pay12 x1) (ix1 p) = harmonics (x1 (ix2 p (0 : Fin 3))) (x1 (ix2 p (1 : Fin 3))) (x1 (ix2 p (2 : Fin 3))) 3 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol4 (x1 : Vec Ideal S1024x3 .f32) (p : Fin 1024) :
    (k0_pay14 (k0_pay3 x1) (k0_pay4 x1) (k0_pay13 (F := Ideal))) (ix1 p) = harmonics (x1 (ix2 p (0 : Fin 3))) (x1 (ix2 p (1 : Fin 3))) (x1 (ix2 p (2 : Fin 3))) 4 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol5 (x1 : Vec Ideal S1024x3 .f32) (p : Fin 1024) :
    (k0_pay15 (k0_pay4 x1) (k0_pay5 x1)) (ix1 p) = harmonics (x1 (ix2 p (0 : Fin 3))) (x1 (ix2 p (1 : Fin 3))) (x1 (ix2 p (2 : Fin 3))) 5 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol6 (x1 : Vec Ideal S1024x3 .f32) (p : Fin 1024) :
    (k0_pay16 (k0_pay8 x1)) (ix1 p) = harmonics (x1 (ix2 p (0 : Fin 3))) (x1 (ix2 p (1 : Fin 3))) (x1 (ix2 p (2 : Fin 3))) 6 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol7 (x1 : Vec Ideal S1024x3 .f32) (p : Fin 1024) :
    (k0_pay17 (k0_pay3 x1) (k0_pay5 x1)) (ix1 p) = harmonics (x1 (ix2 p (0 : Fin 3))) (x1 (ix2 p (1 : Fin 3))) (x1 (ix2 p (2 : Fin 3))) 7 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol8 (x1 : Vec Ideal S1024x3 .f32) (p : Fin 1024) :
    (k0_pay18 (k0_pay6 x1) (k0_pay7 x1)) (ix1 p) = harmonics (x1 (ix2 p (0 : Fin 3))) (x1 (ix2 p (1 : Fin 3))) (x1 (ix2 p (2 : Fin 3))) 8 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol9 (x1 : Vec Ideal S1024x3 .f32) (p : Fin 1024) :
    (k0_pay19 (k0_pay4 x1) (k0_pay6 x1) (k0_pay7 x1)) (ix1 p) = harmonics (x1 (ix2 p (0 : Fin 3))) (x1 (ix2 p (1 : Fin 3))) (x1 (ix2 p (2 : Fin 3))) 9 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol10 (x1 : Vec Ideal S1024x3 .f32) (p : Fin 1024) :
    (k0_pay20 (k0_pay3 x1) (k0_pay4 x1) (k0_pay5 x1)) (ix1 p) = harmonics (x1 (ix2 p (0 : Fin 3))) (x1 (ix2 p (1 : Fin 3))) (x1 (ix2 p (2 : Fin 3))) 10 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol11 (x1 : Vec Ideal S1024x3 .f32) (p : Fin 1024) :
    (k0_pay21 (k0_pay4 x1) (k0_pay8 x1)) (ix1 p) = harmonics (x1 (ix2 p (0 : Fin 3))) (x1 (ix2 p (1 : Fin 3))) (x1 (ix2 p (2 : Fin 3))) 11 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol12 (x1 : Vec Ideal S1024x3 .f32) (p : Fin 1024) :
    (k0_pay22 (k0_pay5 x1) (k0_pay8 x1)) (ix1 p) = harmonics (x1 (ix2 p (0 : Fin 3))) (x1 (ix2 p (1 : Fin 3))) (x1 (ix2 p (2 : Fin 3))) 12 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol13 (x1 : Vec Ideal S1024x3 .f32) (p : Fin 1024) :
    (k0_pay23 (k0_pay3 x1)) (ix1 p) * ((k0_pay24 (k0_pay8 x1)) (ix1 p) - (Scalar.ofBits (F := Ideal) .f32 0x3F800000#32)) = harmonics (x1 (ix2 p (0 : Fin 3))) (x1 (ix2 p (1 : Fin 3))) (x1 (ix2 p (2 : Fin 3))) 13 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol14 (x1 : Vec Ideal S1024x3 .f32) (p : Fin 1024) :
    lit 0x3FB8FFC7#32 * (k0_pay5 x1) (ix1 p) * ((k0_pay6 x1) (ix1 p) - (k0_pay7 x1) (ix1 p)) = harmonics (x1 (ix2 p (0 : Fin 3))) (x1 (ix2 p (1 : Fin 3))) (x1 (ix2 p (2 : Fin 3))) 14 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

theorem kcol15 (x1 : Vec Ideal S1024x3 .f32) (p : Fin 1024) :
    lit 0x3F170D19#32 * (k0_pay3 x1) (ix1 p) * ((k0_pay6 x1) (ix1 p) - lit 0x40400000#32 * (k0_pay7 x1) (ix1 p)) = harmonics (x1 (ix2 p (0 : Fin 3))) (x1 (ix2 p (1 : Fin 3))) (x1 (ix2 p (2 : Fin 3))) 15 := by
  simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, mulf_apply, subf_apply, broadcast_apply, pay3_apply, pay4_apply, pay5_apply]
  rfl

/-- The colour block at `(p, j)`. -/
theorem color_apply (x0 : Vec Ideal S1024x32 .f32) (x1 : Vec Ideal S1024x3 .f32) (x2 : Vec Ideal S32x64 .f32) (x3 : Vec Ideal S64 .f32) (x4 : Vec Ideal S64x16 .f32) (x5 : Vec Ideal S16 .f32) (x6 : Vec Ideal S32x64 .f32) (x7 : Vec Ideal S64 .f32) (x8 : Vec Ideal S64x64 .f32) (x9 : Vec Ideal S64 .f32) (x10 : Vec Ideal S64x3 .f32) (x11 : Vec Ideal S3 .f32) (p : Fin 1024) (j : Fin 3) :
    k0_pay1 (k0_pay25 (k0_pay2 x0 x2 x3 x4 x5) (k0_pay3 x1) (k0_pay5 x1) (k0_pay6 x1) (k0_pay7 x1) (k0_pay9 (F := Ideal)) (k0_pay10 x1) (k0_pay11 x1) (k0_pay12 x1) (k0_pay14 (k0_pay3 x1) (k0_pay4 x1) (k0_pay13 (F := Ideal))) (k0_pay15 (k0_pay4 x1) (k0_pay5 x1)) (k0_pay16 (k0_pay8 x1)) (k0_pay17 (k0_pay3 x1) (k0_pay5 x1)) (k0_pay18 (k0_pay6 x1) (k0_pay7 x1)) (k0_pay19 (k0_pay4 x1) (k0_pay6 x1) (k0_pay7 x1)) (k0_pay20 (k0_pay3 x1) (k0_pay4 x1) (k0_pay5 x1)) (k0_pay21 (k0_pay4 x1) (k0_pay8 x1)) (k0_pay22 (k0_pay5 x1) (k0_pay8 x1)) (k0_pay23 (k0_pay3 x1)) (k0_pay24 (k0_pay8 x1)) (Scalar.ofBits (F := Ideal) .f32 0x3F800000#32) x6 x7 x8) (k0_pay26 x9) x10 x11 (ix2 p j)
      = colorRow x2 x3 x4 x5 x6 x7 x8 x9 x10 x11 (fun k => x0 (ix2 p k)) (x1 (ix2 p (0 : Fin 3))) (x1 (ix2 p (1 : Fin 3))) (x1 (ix2 p (2 : Fin 3))) j := by
  have hB : (![(k0_pay9 (F := Ideal)) (ix1 p),
      (k0_pay10 x1) (ix1 p),
      (k0_pay11 x1) (ix1 p),
      (k0_pay12 x1) (ix1 p),
      (k0_pay14 (k0_pay3 x1) (k0_pay4 x1) (k0_pay13 (F := Ideal))) (ix1 p),
      (k0_pay15 (k0_pay4 x1) (k0_pay5 x1)) (ix1 p),
      (k0_pay16 (k0_pay8 x1)) (ix1 p),
      (k0_pay17 (k0_pay3 x1) (k0_pay5 x1)) (ix1 p),
      (k0_pay18 (k0_pay6 x1) (k0_pay7 x1)) (ix1 p),
      (k0_pay19 (k0_pay4 x1) (k0_pay6 x1) (k0_pay7 x1)) (ix1 p),
      (k0_pay20 (k0_pay3 x1) (k0_pay4 x1) (k0_pay5 x1)) (ix1 p),
      (k0_pay21 (k0_pay4 x1) (k0_pay8 x1)) (ix1 p),
      (k0_pay22 (k0_pay5 x1) (k0_pay8 x1)) (ix1 p),
      (k0_pay23 (k0_pay3 x1)) (ix1 p) * ((k0_pay24 (k0_pay8 x1)) (ix1 p) - (Scalar.ofBits (F := Ideal) .f32 0x3F800000#32)),
      lit 0x3FB8FFC7#32 * (k0_pay5 x1) (ix1 p) * ((k0_pay6 x1) (ix1 p) - (k0_pay7 x1) (ix1 p)),
      lit 0x3F170D19#32 * (k0_pay3 x1) (ix1 p) * ((k0_pay6 x1) (ix1 p) - lit 0x40400000#32 * (k0_pay7 x1) (ix1 p))] : Fin 16 → EReal)
      = harmonics (x1 (ix2 p (0 : Fin 3))) (x1 (ix2 p (1 : Fin 3))) (x1 (ix2 p (2 : Fin 3))) :=
    ext16 _ _ (kcol0 x1 p) (kcol1 x1 p) (kcol2 x1 p) (kcol3 x1 p) (kcol4 x1 p) (kcol5 x1 p) (kcol6 x1 p) (kcol7 x1 p) (kcol8 x1 p) (kcol9 x1 p) (kcol10 x1 p) (kcol11 x1 p) (kcol12 x1 p) (kcol13 x1 p) (kcol14 x1 p) (kcol15 x1 p)
  rw [pay1_apply]
  simp only [pay25_apply, pay26_apply, pay2_apply, hB]
  rfl

end Cert.KernelIdeal.Rows

end
-- ==== Proof.KerArrays.lean ====
/-
  From blocks to arrays. Grid point `t` reads rows `1024 t … 1024 t + 1023` of the positions and of the directions and the
  whole of every weight matrix and bias, and writes rows `1024 t … 1024 t + 1023` of the two results. What it writes is
  therefore the same rows of the density array and of the colour array; the 1024 points' row blocks tile both results, so
  after the run each result is the whole array.
-/
import proofs.«101879_j76673756168435_2_alg».proof.Proof.Gen.KernelIdeal.Value
import proofs.«101879_j76673756168435_2_alg».proof.Proof.KerColor

noncomputable section

namespace Cert.KernelIdeal.Arrays

open Cert.KernelIdeal Cert.KernelIdeal.Gen Idealize.ShloMosaic Idealize.ShloMosaic.TcCoe Idealize.SL.Sem
open Idealize.ShloMosaic.ValueIdx Cert.Mlp Cert.KernelIdeal.Rows
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- There are 1024 grid points. -/
theorem lt_N (t : Fin cfg0.N) : t.val < 1024 :=
  lt_of_lt_of_eq t.isLt (show cfg0.N = 1024 from N_0)

/-- Row `p` of grid point `t`'s block is row `1024 t + p` of the array. -/
def row (t : Fin cfg0.N) (p : Fin 1024) : Fin 1048576 := ⟨t.val * 1024 + p.val, by have := lt_N t; have := p.isLt; omega⟩

/-! ## The index maps, decided over the 1024 points -/

/-- The position, direction and result windows move down one block of rows per point. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- The weight and bias windows stay on their one block. -/
theorem idx_fixed : ∀ t : Fin cfg0.N,
    win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0 :=
  (by decide +kernel : ∀ t : Fin grid0.N, _)

/-! ## The input blocks -/

/-- The position block of point `t` at `(p, k)` is the position array at row `1024 t + p`. -/
theorem iblk0_apply (c : Dev nD) (t : Fin cfg0.N) (p : Fin 1024) (k : Fin 32) :
    (iblk m c 0 t : Vec Ideal S1024x32 .f32) (ix2 p k) = ((m ((c : Thread nD τ).loc main_arg0)) : S1048576x32.Idx → EReal) (ix2 (row t p) k) := by
  obtain ⟨e0, e1, -⟩ := idx_rows t
  unfold iblk
  rw [View.read_apply]
  show V m c main_arg0 _ = _
  refine congrArg (V m c main_arg0) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 32 + 1 * k.val = k.val; rw [e1]; omega

/-- The direction block of point `t` at `(p, k)` is the direction array at row `1024 t + p`. -/
theorem iblk1_apply (c : Dev nD) (t : Fin cfg0.N) (p : Fin 1024) (k : Fin 3) :
    (iblk m c 1 t : Vec Ideal S1024x3 .f32) (ix2 p k) = ((m ((c : Thread nD τ).loc main_arg1)) : S1048576x3.Idx → EReal) (ix2 (row t p) k) := by
  obtain ⟨-, -, e0, e1, -⟩ := idx_rows t
  unfold iblk
  rw [View.read_apply]
  show V m c main_arg1 _ = _
  refine congrArg (V m c main_arg1) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 3 + 1 * k.val = k.val; rw [e1]; omega

/-- The block of argument 2 at every point is the whole argument. -/
theorem iblk2_eq (c : Dev nD) (t : Fin cfg0.N) :
    (iblk m c 2 t : Vec Ideal S32x64 .f32) = ((m ((c : Thread nD τ).loc main_arg2)) : S32x64.Idx → EReal) := by
  obtain ⟨e0, e1, -, -, -, -, -, -, -, -, -, -, -, -, -⟩ := idx_fixed t
  funext y
  unfold iblk
  rw [View.read_apply]
  show V m c main_arg2 _ = _
  refine congrArg (V m c main_arg2) (funext fun a => Fin.ext ?_)
  match a with
  | ⟨0, _⟩ => show win0_2.index t (0 : Fin 2) * 32 + 1 * (y 0).val = (y 0).val; rw [e0]; omega
  | ⟨1, _⟩ => show win0_2.index t (1 : Fin 2) * 64 + 1 * (y 1).val = (y 1).val; rw [e1]; omega

/-- The block of argument 3 at every point is the whole argument. -/
theorem iblk3_eq (c : Dev nD) (t : Fin cfg0.N) :
    (iblk m c 3 t : Vec Ideal S64 .f32) = ((m ((c : Thread nD τ).loc main_arg3)) : S64.Idx → EReal) := by
  obtain ⟨-, -, e0, -, -, -, -, -, -, -, -, -, -, -, -⟩ := idx_fixed t
  funext y
  unfold iblk
  rw [View.read_apply]
  show V m c main_arg3 _ = _
  refine congrArg (V m c main_arg3) (funext fun a => Fin.ext ?_)
  match a with
  | ⟨0, _⟩ => show win0_3.index t (0 : Fin 1) * 64 + 1 * (y 0).val = (y 0).val; rw [e0]; omega

/-- The block of argument 4 at every point is the whole argument. -/
theorem iblk4_eq (c : Dev nD) (t : Fin cfg0.N) :
    (iblk m c 4 t : Vec Ideal S64x16 .f32) = ((m ((c : Thread nD τ).loc main_arg4)) : S64x16.Idx → EReal) := by
  obtain ⟨-, -, -, e0, e1, -, -, -, -, -, -, -, -, -, -⟩ := idx_fixed t
  funext y
  unfold iblk
  rw [View.read_apply]
  show V m c main_arg4 _ = _
  refine congrArg (V m c main_arg4) (funext fun a => Fin.ext ?_)
  match a with
  | ⟨0, _⟩ => show win0_4.index t (0 : Fin 2) * 64 + 1 * (y 0).val = (y 0).val; rw [e0]; omega
  | ⟨1, _⟩ => show win0_4.index t (1 : Fin 2) * 16 + 1 * (y 1).val = (y 1).val; rw [e1]; omega

/-- The block of argument 5 at every point is the whole argument. -/
theorem iblk5_eq (c : Dev nD) (t : Fin cfg0.N) :
    (iblk m c 5 t : Vec Ideal S16 .f32) = ((m ((c : Thread nD τ).loc main_arg5)) : S16.Idx → EReal) := by
  obtain ⟨-, -, -, -, -, e0, -, -, -, -, -, -, -, -, -⟩ := idx_fixed t
  funext y
  unfold iblk
  rw [View.read_apply]
  show V m c main_arg5 _ = _
  refine congrArg (V m c main_arg5) (funext fun a => Fin.ext ?_)
  match a with
  | ⟨0, _⟩ => show win0_5.index t (0 : Fin 1) * 16 + 1 * (y 0).val = (y 0).val; rw [e0]; omega

/-- The block of argument 6 at every point is the whole argument. -/
theorem iblk6_eq (c : Dev nD) (t : Fin cfg0.N) :
    (iblk m c 6 t : Vec Ideal S32x64 .f32) = ((m ((c : Thread nD τ).loc main_arg6)) : S32x64.Idx → EReal) := by
  obtain ⟨-, -, -, -, -, -, e0, e1, -, -, -, -, -, -, -⟩ := idx_fixed t
  funext y
  unfold iblk
  rw [View.read_apply]
  show V m c main_arg6 _ = _
  refine congrArg (V m c main_arg6) (funext fun a => Fin.ext ?_)
  match a with
  | ⟨0, _⟩ => show win0_6.index t (0 : Fin 2) * 32 + 1 * (y 0).val = (y 0).val; rw [e0]; omega
  | ⟨1, _⟩ => show win0_6.index t (1 : Fin 2) * 64 + 1 * (y 1).val = (y 1).val; rw [e1]; omega

/-- The block of argument 7 at every point is the whole argument. -/
theorem iblk7_eq (c : Dev nD) (t : Fin cfg0.N) :
    (iblk m c 7 t : Vec Ideal S64 .f32) = ((m ((c : Thread nD τ).loc main_arg7)) : S64.Idx → EReal) := by
  obtain ⟨-, -, -, -, -, -, -, -, e0, -, -, -, -, -, -⟩ := idx_fixed t
  funext y
  unfold iblk
  rw [View.read_apply]
  show V m c main_arg7 _ = _
  refine congrArg (V m c main_arg7) (funext fun a => Fin.ext ?_)
  match a with
  | ⟨0, _⟩ => show win0_7.index t (0 : Fin 1) * 64 + 1 * (y 0).val = (y 0).val; rw [e0]; omega

/-- The block of argument 8 at every point is the whole argument. -/
theorem iblk8_eq (c : Dev nD) (t : Fin cfg0.N) :
    (iblk m c 8 t : Vec Ideal S64x64 .f32) = ((m ((c : Thread nD τ).loc main_arg8)) : S64x64.Idx → EReal) := by
  obtain ⟨-, -, -, -, -, -, -, -, -, e0, e1, -, -, -, -⟩ := idx_fixed t
  funext y
  unfold iblk
  rw [View.read_apply]
  show V m c main_arg8 _ = _
  refine congrArg (V m c main_arg8) (funext fun a => Fin.ext ?_)
  match a with
  | ⟨0, _⟩ => show win0_8.index t (0 : Fin 2) * 64 + 1 * (y 0).val = (y 0).val; rw [e0]; omega
  | ⟨1, _⟩ => show win0_8.index t (1 : Fin 2) * 64 + 1 * (y 1).val = (y 1).val; rw [e1]; omega

/-- The block of argument 9 at every point is the whole argument. -/
theorem iblk9_eq (c : Dev nD) (t : Fin cfg0.N) :
    (iblk m c 9 t : Vec Ideal S64 .f32) = ((m ((c : Thread nD τ).loc main_arg9)) : S64.Idx → EReal) := by
  obtain ⟨-, -, -, -, -, -, -, -, -, -, -, e0, -, -, -⟩ := idx_fixed t
  funext y
  unfold iblk
  rw [View.read_apply]
  show V m c main_arg9 _ = _
  refine congrArg (V m c main_arg9) (funext fun a => Fin.ext ?_)
  match a with
  | ⟨0, _⟩ => show win0_9.index t (0 : Fin 1) * 64 + 1 * (y 0).val = (y 0).val; rw [e0]; omega

/-- The block of argument 10 at every point is the whole argument. -/
theorem iblk10_eq (c : Dev nD) (t : Fin cfg0.N) :
    (iblk m c 10 t : Vec Ideal S64x3 .f32) = ((m ((c : Thread nD τ).loc main_arg10)) : S64x3.Idx → EReal) := by
  obtain ⟨-, -, -, -, -, -, -, -, -, -, -, -, e0, e1, -⟩ := idx_fixed t
  funext y
  unfold iblk
  rw [View.read_apply]
  show V m c main_arg10 _ = _
  refine congrArg (V m c main_arg10) (funext fun a => Fin.ext ?_)
  match a with
  | ⟨0, _⟩ => show win0_10.index t (0 : Fin 2) * 64 + 1 * (y 0).val = (y 0).val; rw [e0]; omega
  | ⟨1, _⟩ => show win0_10.index t (1 : Fin 2) * 3 + 1 * (y 1).val = (y 1).val; rw [e1]; omega

/-- The block of argument 11 at every point is the whole argument. -/
theorem iblk11_eq (c : Dev nD) (t : Fin cfg0.N) :
    (iblk m c 11 t : Vec Ideal S3 .f32) = ((m ((c : Thread nD τ).loc main_arg11)) : S3.Idx → EReal) := by
  obtain ⟨-, -, -, -, -, -, -, -, -, -, -, -, -, -, e0⟩ := idx_fixed t
  funext y
  unfold iblk
  rw [View.read_apply]
  show V m c main_arg11 _ = _
  refine congrArg (V m c main_arg11) (funext fun a => Fin.ext ?_)
  match a with
  | ⟨0, _⟩ => show win0_11.index t (0 : Fin 1) * 3 + 1 * (y 0).val = (y 0).val; rw [e0]; omega

/-! ## What a point writes back -/

/-- The rows of a result that point `t` writes: at `(p, q)` of the block, row `1024 t + p`, column `q`. -/
theorem emb12 (t : Fin cfg0.N) (p : Fin 1024) (q : Fin 16) :
    ((cfg0.win 12).blk t).view.emb (ix2 p q) = (ix2 (row t p) q : S1048576x16.Idx) := by
  obtain ⟨-, -, -, -, e0, e1, -⟩ := idx_rows t
  funext a
  apply Fin.ext
  match a with
  | ⟨0, _⟩ => show win0_12.index t (0 : Fin 2) * 1024 + 1 * p.val = t.val * 1024 + p.val; rw [e0]; omega
  | ⟨1, _⟩ => show win0_12.index t (1 : Fin 2) * 16 + 1 * q.val = q.val; rw [e1]; omega

theorem emb13 (t : Fin cfg0.N) (p : Fin 1024) (q : Fin 3) :
    ((cfg0.win 13).blk t).view.emb (ix2 p q) = (ix2 (row t p) q : S1048576x3.Idx) := by
  obtain ⟨-, -, -, -, -, -, e0, e1⟩ := idx_rows t
  funext a
  apply Fin.ext
  match a with
  | ⟨0, _⟩ => show win0_13.index t (0 : Fin 2) * 1024 + 1 * p.val = t.val * 1024 + p.val; rw [e0]; omega
  | ⟨1, _⟩ => show win0_13.index t (1 : Fin 2) * 3 + 1 * q.val = q.val; rw [e1]; omega

/-- Point `t` writes back block `t` of the density array. -/
theorem flushed12_eq (c : Dev nD) (t : Fin cfg0.N) :
    (dats m 0 c).flushed 12 t = ((cfg0.win 12).blk t).view.read (Elt Ideal) (density (m ((c : Thread nD τ).loc main_arg2)) (m ((c : Thread nD τ).loc main_arg3)) (m ((c : Thread nD τ).loc main_arg4)) (m ((c : Thread nD τ).loc main_arg5)) (m ((c : Thread nD τ).loc main_arg0))) := by
  rw [Value.flushed12]
  unfold out0_12
  rw [View.canon_unit_zero hz2]
  simp only [View.ld_unit_zero (S := S1024x32) hz2, View.ld_unit_zero (S := S32x64) hz2, View.ld_unit_zero (S := S64) hz1, View.ld_unit_zero (S := S64x16) hz2, View.ld_unit_zero (S := S16) hz1]
  rw [iblk2_eq, iblk3_eq, iblk4_eq, iblk5_eq]
  funext y
  obtain ⟨p, q, rfl⟩ : ∃ (p : Fin 1024) (q : Fin 16), y = ix2 p q := ⟨y 0, y 1, eq_ix2 y⟩
  show k0_pay2 (iblk m c 0 t) (m ((c : Thread nD τ).loc main_arg2)) (m ((c : Thread nD τ).loc main_arg3)) (m ((c : Thread nD τ).loc main_arg4)) (m ((c : Thread nD τ).loc main_arg5)) (ix2 p q)
    = (density (m ((c : Thread nD τ).loc main_arg2)) (m ((c : Thread nD τ).loc main_arg3)) (m ((c : Thread nD τ).loc main_arg4)) (m ((c : Thread nD τ).loc main_arg5)) (m ((c : Thread nD τ).loc main_arg0))) (((cfg0.win 12).blk t).view.emb (ix2 p q))
  rw [pay2_apply, emb12]
  show densityRow _ _ _ _ (fun k => (iblk m c 0 t : Vec Ideal S1024x32 .f32) (ix2 p k)) q
    = densityRow _ _ _ _ (fun k => ((m ((c : Thread nD τ).loc main_arg0)) : S1048576x32.Idx → EReal) (ix2 (row t p) k)) q
  simp only [iblk0_apply]

/-- Point `t` writes back block `t` of the colour array. -/
theorem flushed13_eq (c : Dev nD) (t : Fin cfg0.N) :
    (dats m 0 c).flushed 13 t = ((cfg0.win 13).blk t).view.read (Elt Ideal) (color (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1))) := by
  rw [Value.flushed13]
  unfold out0_13
  rw [View.canon_unit_zero hz2]
  simp only [View.ld_unit_zero (S := S1024x32) hz2, View.ld_unit_zero (S := S1024x3) hz2, View.ld_unit_zero (S := S32x64) hz2, View.ld_unit_zero (S := S64) hz1, View.ld_unit_zero (S := S64x16) hz2, View.ld_unit_zero (S := S16) hz1, View.ld_unit_zero (S := S64x64) hz2, View.ld_unit_zero (S := S64x3) hz2, View.ld_unit_zero (S := S3) hz1]
  rw [iblk2_eq, iblk3_eq, iblk4_eq, iblk5_eq, iblk6_eq, iblk7_eq, iblk8_eq, iblk9_eq, iblk10_eq, iblk11_eq]
  funext y
  obtain ⟨p, j, rfl⟩ : ∃ (p : Fin 1024) (j : Fin 3), y = ix2 p j := ⟨y 0, y 1, eq_ix2 y⟩
  refine (color_apply (iblk m c 0 t) (iblk m c 1 t) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) p j).trans ?_
  show _ = (color (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1))) (((cfg0.win 13).blk t).view.emb (ix2 p j))
  rw [emb13]
  show colorRow _ _ _ _ _ _ _ _ _ _ (fun k => (iblk m c 0 t : Vec Ideal S1024x32 .f32) (ix2 p k))
      ((iblk m c 1 t : Vec Ideal S1024x3 .f32) (ix2 p (0 : Fin 3))) ((iblk m c 1 t : Vec Ideal S1024x3 .f32) (ix2 p (1 : Fin 3)))
      ((iblk m c 1 t : Vec Ideal S1024x3 .f32) (ix2 p (2 : Fin 3))) j
    = colorRow _ _ _ _ _ _ _ _ _ _ (fun k => ((m ((c : Thread nD τ).loc main_arg0)) : S1048576x32.Idx → EReal) (ix2 (row t p) k))
      (((m ((c : Thread nD τ).loc main_arg1)) : S1048576x3.Idx → EReal) (ix2 (row t p) (0 : Fin 3)))
      (((m ((c : Thread nD τ).loc main_arg1)) : S1048576x3.Idx → EReal) (ix2 (row t p) (1 : Fin 3)))
      (((m ((c : Thread nD τ).loc main_arg1)) : S1048576x3.Idx → EReal) (ix2 (row t p) (2 : Fin 3))) j
  simp only [iblk0_apply, iblk1_apply]

/-! ## The blocks tile the results -/

theorem mem_blk12 (t : Fin cfg0.N) (i : S1048576x16.Idx) :
    i ∈ ((cfg0.win 12).blk t).view.set ↔ ∀ a : Fin 2, win0_12.index t a * S1024x16.size a ≤ (i a).val ∧ (i a).val < win0_12.index t a * S1024x16.size a + S1024x16.size a := by
  show i ∈ ((View.whole main_v0_0).slice (win0_12.rect t)).set ↔ _
  rw [View.set_slice_whole, Rect.mem_set_unit]
  exact Iff.rfl

theorem mem_blk13 (t : Fin cfg0.N) (i : S1048576x3.Idx) :
    i ∈ ((cfg0.win 13).blk t).view.set ↔ ∀ a : Fin 2, win0_13.index t a * S1024x3.size a ≤ (i a).val ∧ (i a).val < win0_13.index t a * S1024x3.size a + S1024x3.size a := by
  show i ∈ ((View.whole main_v0_1).slice (win0_13.rect t)).set ↔ _
  rw [View.set_slice_whole, Rect.mem_set_unit]
  exact Iff.rfl

/-- Row `r` of the density array lies in the block of point `r / 1024`. -/
theorem cover12 (i : S1048576x16.Idx) : ∃ t : Fin cfg0.N, (cfg0.win 12).flush t = true ∧ i ∈ ((cfg0.win 12).blk t).view.set := by
  have hi0 : (i 0).val < 1048576 := (i 0).isLt
  have hi1 : (i 1).val < 16 := (i 1).isLt
  obtain ⟨t, ht⟩ : ∃ t : Fin cfg0.N, t.val = (i 0).val / 1024 :=
    ⟨⟨(i 0).val / 1024, by rw [show cfg0.N = 1024 from N_0]; omega⟩, rfl⟩
  obtain ⟨-, -, -, -, e0, e1, -⟩ := idx_rows t
  refine ⟨t, flush0_12 t, ?_⟩
  rw [mem_blk12]
  intro a
  match a with
  | ⟨0, _⟩ => show win0_12.index t (0 : Fin 2) * 1024 ≤ (i 0).val ∧ (i 0).val < win0_12.index t (0 : Fin 2) * 1024 + 1024; rw [e0, ht]; omega
  | ⟨1, _⟩ => show win0_12.index t (1 : Fin 2) * 16 ≤ (i 1).val ∧ (i 1).val < win0_12.index t (1 : Fin 2) * 16 + 16; rw [e1]; omega

/-- Row `r` of the colour array lies in the block of point `r / 1024`. -/
theorem cover13 (i : S1048576x3.Idx) : ∃ t : Fin cfg0.N, (cfg0.win 13).flush t = true ∧ i ∈ ((cfg0.win 13).blk t).view.set := by
  have hi0 : (i 0).val < 1048576 := (i 0).isLt
  have hi1 : (i 1).val < 3 := (i 1).isLt
  obtain ⟨t, ht⟩ : ∃ t : Fin cfg0.N, t.val = (i 0).val / 1024 :=
    ⟨⟨(i 0).val / 1024, by rw [show cfg0.N = 1024 from N_0]; omega⟩, rfl⟩
  obtain ⟨-, -, -, -, -, -, e0, e1⟩ := idx_rows t
  refine ⟨t, flush0_13 t, ?_⟩
  rw [mem_blk13]
  intro a
  match a with
  | ⟨0, _⟩ => show win0_13.index t (0 : Fin 2) * 1024 ≤ (i 0).val ∧ (i 0).val < win0_13.index t (0 : Fin 2) * 1024 + 1024; rw [e0, ht]; omega
  | ⟨1, _⟩ => show win0_13.index t (1 : Fin 2) * 3 ≤ (i 1).val ∧ (i 1).val < win0_13.index t (1 : Fin 2) * 3 + 3; rw [e1]; omega

/-- After the run the first result is the density array, -/
theorem final12 (c : Dev nD) : (dats m 0 c).arrAt 12 cfg0.N = (density (m ((c : Thread nD τ).loc main_arg2)) (m ((c : Thread nD τ).loc main_arg3)) (m ((c : Thread nD τ).loc main_arg4)) (m ((c : Thread nD τ).loc main_arg5)) (m ((c : Thread nD τ).loc main_arg0))) :=
  (dats m 0 c).arrAt_eq_of_cover 12 (density (m ((c : Thread nD τ).loc main_arg2)) (m ((c : Thread nD τ).loc main_arg3)) (m ((c : Thread nD τ).loc main_arg4)) (m ((c : Thread nD τ).loc main_arg5)) (m ((c : Thread nD τ).loc main_arg0))) (fun t _ => flushed12_eq m c t) cover12

/-- and the second the colour array. -/
theorem final13 (c : Dev nD) : (dats m 0 c).arrAt 13 cfg0.N = (color (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1))) :=
  (dats m 0 c).arrAt_eq_of_cover 13 (color (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1))) (fun t _ => flushed13_eq m c t) cover13

/-- The kernel's run: it ends with the density array and the colour array of its arguments, the arguments unchanged. -/
theorem run : θ_run defs (onTc (τ := τ) (main (F := Ideal))) ⟨m, fun _ => 0, ρ⟩ fun r => ∀ c : Dev nD,
      r.2.mem ((c : Thread nD τ).loc main_v0_0) = (density (m ((c : Thread nD τ).loc main_arg2)) (m ((c : Thread nD τ).loc main_arg3)) (m ((c : Thread nD τ).loc main_arg4)) (m ((c : Thread nD τ).loc main_arg5)) (m ((c : Thread nD τ).loc main_arg0)))
      ∧ r.2.mem ((c : Thread nD τ).loc main_v0_1) = (color (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (Value.run_blocks m ρ)

end Cert.KernelIdeal.Arrays

end
-- ==== Proof.RefRows.lean ====
/-
  The reference read row by row: each stage's value at an entry of row `r`, written with the position row `r`, the
  direction row `r` and the weights. A matrix product is the sum over the contracted position; a bias is laid along the
  rows; the direction's three columns are cut out and flattened; the sixteen harmonics are polynomials of those columns
  taken entry by entry, each viewed as a column and the sixteen joined side by side; the density features are joined to
  their left; and the logistic function is spelled `1 / (1 + e^(-v))`.
-/
import proofs.«101879_j76673756168435_2_alg».proof.Proof.Gen.ReferenceIdeal.Read
import proofs.«101879_j76673756168435_2_alg».proof.Proof.Spec
import proofs.«101879_j76673756168435_2_alg».proof.Proof.LibRowForms

noncomputable section

namespace Cert.ReferenceIdeal.RefRows

open Cert.ReferenceIdeal Cert.ReferenceIdeal.Gen Cert.ReferenceIdeal.Read Idealize.ShloMosaic Idealize.ShloMosaic.ValueIdx
open Cert.Mlp Cert.RowForms

/-- The float32 pattern of `1.0` denotes the real number one. -/
theorem lit_one : Ideal.ofBits .f32 0x3F800000#32 = 1 := by
  simp [Ideal.ofBits, Ideal.ieee]
  rw [← EReal.coe_mul]
  norm_num

/-! ## The density head -/

theorem v4_row (x0 : (⟨S1048576x32, .f32⟩ : BufTy).Contents (Elt Ideal)) (x2 : (⟨S32x64, .f32⟩ : BufTy).Contents (Elt Ideal)) (x3 : (⟨S64, .f32⟩ : BufTy).Contents (Elt Ideal)) (r : Fin 1048576) (k : Fin 64) :
    val_main_v4 (F := Ideal) x0 x2 x3 (ix2 r k) = relu (dense (fun j => x0 (ix2 r j)) x2 x3 k) := by
  rw [val_main_v4_apply, val_main_v3_apply, val_main_v0_apply, val_main_v2_apply, val_main_v1_apply,
    val_main_call0_v0_apply, val_main_call0_cst_apply]
  have e1 : ∀ j : Fin 32, lidx_main_v0 (ix2 r k) j = ix2 r j := fun j => funext fun a => by
    match a with
    | ⟨0, _⟩ => rfl
    | ⟨1, _⟩ => rfl
  have e2 : ∀ j : Fin 32, ridx_main_v0 (ix2 r k) j = ix2 j k := fun j => funext fun a => by
    match a with
    | ⟨0, _⟩ => rfl
    | ⟨1, _⟩ => rfl
  have e3 : idx_main_v1 (idx_main_v2 (ix2 r k)) = ix1 k := funext fun a => by
    match a with
    | ⟨0, _⟩ => rfl
  simp only [e1, e2, e3]
  rfl

theorem v8_row (x0 : (⟨S1048576x32, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (r : Fin 1048576) (q : Fin 16) :
    val_main_v8 (F := Ideal) x0 x2 x3 x4 x5 (ix2 r q) = densityRow x2 x3 x4 x5 (fun j => x0 (ix2 r j)) q := by
  rw [val_main_v8_apply, val_main_v5_apply, val_main_v7_apply, val_main_v6_apply]
  have e1 : ∀ j : Fin 64, lidx_main_v5 (ix2 r q) j = ix2 r j := fun j => funext fun a => by
    match a with
    | ⟨0, _⟩ => rfl
    | ⟨1, _⟩ => rfl
  have e2 : ∀ j : Fin 64, ridx_main_v5 (ix2 r q) j = ix2 j q := fun j => funext fun a => by
    match a with
    | ⟨0, _⟩ => rfl
    | ⟨1, _⟩ => rfl
  have e3 : idx_main_v6 (idx_main_v7 (ix2 r q)) = ix1 q := funext fun a => by
    match a with
    | ⟨0, _⟩ => rfl
  simp only [e1, e2, e3, v4_row]
  rfl

/-! ## The direction's columns and the harmonics -/

theorem v10_row (x1 : (⟨S1048576x3, .f32⟩ : BufTy).Contents (Elt Ideal)) (r : Fin 1048576) : val_main_v10 (F := Ideal) x1 (ix1 r) = x1 (ix2 r (0 : Fin 3)) := by
  rw [val_main_v10_apply, val_main_v9_apply]
  refine congrArg x1 (funext fun a => ?_)
  match a with
  | ⟨0, _⟩ => exact Fin.ext (Nat.div_one _)
  | ⟨1, _⟩ => rfl

theorem v12_row (x1 : (⟨S1048576x3, .f32⟩ : BufTy).Contents (Elt Ideal)) (r : Fin 1048576) : val_main_v12 (F := Ideal) x1 (ix1 r) = x1 (ix2 r (1 : Fin 3)) := by
  rw [val_main_v12_apply, val_main_v11_apply]
  refine congrArg x1 (funext fun a => ?_)
  match a with
  | ⟨0, _⟩ => exact Fin.ext (Nat.div_one _)
  | ⟨1, _⟩ => rfl

theorem v14_row (x1 : (⟨S1048576x3, .f32⟩ : BufTy).Contents (Elt Ideal)) (r : Fin 1048576) : val_main_v14 (F := Ideal) x1 (ix1 r) = x1 (ix2 r (2 : Fin 3)) := by
  rw [val_main_v14_apply, val_main_v13_apply]
  refine congrArg x1 (funext fun a => ?_)
  match a with
  | ⟨0, _⟩ => exact Fin.ext (Nat.div_one _)
  | ⟨1, _⟩ => rfl

theorem harm0 (x1 : (⟨S1048576x3, .f32⟩ : BufTy).Contents (Elt Ideal)) (r : Fin 1048576) :
    val_main_v18 (F := Ideal) (ix1 r) = harmonics (x1 (ix2 r (0 : Fin 3))) (x1 (ix2 r (1 : Fin 3))) (x1 (ix2 r (2 : Fin 3))) 0 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm1 (x1 : (⟨S1048576x3, .f32⟩ : BufTy).Contents (Elt Ideal)) (r : Fin 1048576) :
    val_main_v20 (F := Ideal) x1 (ix1 r) = harmonics (x1 (ix2 r (0 : Fin 3))) (x1 (ix2 r (1 : Fin 3))) (x1 (ix2 r (2 : Fin 3))) 1 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm2 (x1 : (⟨S1048576x3, .f32⟩ : BufTy).Contents (Elt Ideal)) (r : Fin 1048576) :
    val_main_v22 (F := Ideal) x1 (ix1 r) = harmonics (x1 (ix2 r (0 : Fin 3))) (x1 (ix2 r (1 : Fin 3))) (x1 (ix2 r (2 : Fin 3))) 2 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm3 (x1 : (⟨S1048576x3, .f32⟩ : BufTy).Contents (Elt Ideal)) (r : Fin 1048576) :
    val_main_v24 (F := Ideal) x1 (ix1 r) = harmonics (x1 (ix2 r (0 : Fin 3))) (x1 (ix2 r (1 : Fin 3))) (x1 (ix2 r (2 : Fin 3))) 3 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm4 (x1 : (⟨S1048576x3, .f32⟩ : BufTy).Contents (Elt Ideal)) (r : Fin 1048576) :
    val_main_v27 (F := Ideal) x1 (ix1 r) = harmonics (x1 (ix2 r (0 : Fin 3))) (x1 (ix2 r (1 : Fin 3))) (x1 (ix2 r (2 : Fin 3))) 4 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm5 (x1 : (⟨S1048576x3, .f32⟩ : BufTy).Contents (Elt Ideal)) (r : Fin 1048576) :
    val_main_v30 (F := Ideal) x1 (ix1 r) = harmonics (x1 (ix2 r (0 : Fin 3))) (x1 (ix2 r (1 : Fin 3))) (x1 (ix2 r (2 : Fin 3))) 5 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm6 (x1 : (⟨S1048576x3, .f32⟩ : BufTy).Contents (Elt Ideal)) (r : Fin 1048576) :
    val_main_v34 (F := Ideal) x1 (ix1 r) = harmonics (x1 (ix2 r (0 : Fin 3))) (x1 (ix2 r (1 : Fin 3))) (x1 (ix2 r (2 : Fin 3))) 6 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm7 (x1 : (⟨S1048576x3, .f32⟩ : BufTy).Contents (Elt Ideal)) (r : Fin 1048576) :
    val_main_v37 (F := Ideal) x1 (ix1 r) = harmonics (x1 (ix2 r (0 : Fin 3))) (x1 (ix2 r (1 : Fin 3))) (x1 (ix2 r (2 : Fin 3))) 7 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm8 (x1 : (⟨S1048576x3, .f32⟩ : BufTy).Contents (Elt Ideal)) (r : Fin 1048576) :
    val_main_v40 (F := Ideal) x1 (ix1 r) = harmonics (x1 (ix2 r (0 : Fin 3))) (x1 (ix2 r (1 : Fin 3))) (x1 (ix2 r (2 : Fin 3))) 8 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm9 (x1 : (⟨S1048576x3, .f32⟩ : BufTy).Contents (Elt Ideal)) (r : Fin 1048576) :
    val_main_v46 (F := Ideal) x1 (ix1 r) = harmonics (x1 (ix2 r (0 : Fin 3))) (x1 (ix2 r (1 : Fin 3))) (x1 (ix2 r (2 : Fin 3))) 9 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm10 (x1 : (⟨S1048576x3, .f32⟩ : BufTy).Contents (Elt Ideal)) (r : Fin 1048576) :
    val_main_v50 (F := Ideal) x1 (ix1 r) = harmonics (x1 (ix2 r (0 : Fin 3))) (x1 (ix2 r (1 : Fin 3))) (x1 (ix2 r (2 : Fin 3))) 10 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm11 (x1 : (⟨S1048576x3, .f32⟩ : BufTy).Contents (Elt Ideal)) (r : Fin 1048576) :
    val_main_v57 (F := Ideal) x1 (ix1 r) = harmonics (x1 (ix2 r (0 : Fin 3))) (x1 (ix2 r (1 : Fin 3))) (x1 (ix2 r (2 : Fin 3))) 11 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm12 (x1 : (⟨S1048576x3, .f32⟩ : BufTy).Contents (Elt Ideal)) (r : Fin 1048576) :
    val_main_v64 (F := Ideal) x1 (ix1 r) = harmonics (x1 (ix2 r (0 : Fin 3))) (x1 (ix2 r (1 : Fin 3))) (x1 (ix2 r (2 : Fin 3))) 12 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm13 (x1 : (⟨S1048576x3, .f32⟩ : BufTy).Contents (Elt Ideal)) (r : Fin 1048576) :
    val_main_v71 (F := Ideal) x1 (ix1 r) = harmonics (x1 (ix2 r (0 : Fin 3))) (x1 (ix2 r (1 : Fin 3))) (x1 (ix2 r (2 : Fin 3))) 13 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm14 (x1 : (⟨S1048576x3, .f32⟩ : BufTy).Contents (Elt Ideal)) (r : Fin 1048576) :
    val_main_v75 (F := Ideal) x1 (ix1 r) = harmonics (x1 (ix2 r (0 : Fin 3))) (x1 (ix2 r (1 : Fin 3))) (x1 (ix2 r (2 : Fin 3))) 14 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem harm15 (x1 : (⟨S1048576x3, .f32⟩ : BufTy).Contents (Elt Ideal)) (r : Fin 1048576) :
    val_main_v81 (F := Ideal) x1 (ix1 r) = harmonics (x1 (ix2 r (0 : Fin 3))) (x1 (ix2 r (1 : Fin 3))) (x1 (ix2 r (2 : Fin 3))) 15 := by
  simp only [val_main_v15_apply, val_main_v16_apply, val_main_v17_apply, val_main_cst_apply, val_main_v18_apply, val_main_cst_0_apply, val_main_v19_apply, val_main_v20_apply, val_main_cst_1_apply, val_main_v21_apply, val_main_v22_apply, val_main_cst_2_apply, val_main_v23_apply, val_main_v24_apply, val_main_cst_3_apply, val_main_v25_apply, val_main_v26_apply, val_main_v27_apply, val_main_cst_4_apply, val_main_v28_apply, val_main_v29_apply, val_main_v30_apply, val_main_cst_5_apply, val_main_v31_apply, val_main_v32_apply, val_main_cst_6_apply, val_main_v33_apply, val_main_v34_apply, val_main_cst_7_apply, val_main_v35_apply, val_main_v36_apply, val_main_v37_apply, val_main_v38_apply, val_main_cst_8_apply, val_main_v39_apply, val_main_v40_apply, val_main_cst_9_apply, val_main_v41_apply, val_main_v42_apply, val_main_cst_10_apply, val_main_v43_apply, val_main_v44_apply, val_main_v45_apply, val_main_v46_apply, val_main_cst_11_apply, val_main_v47_apply, val_main_v48_apply, val_main_v49_apply, val_main_v50_apply, val_main_cst_12_apply, val_main_v51_apply, val_main_v52_apply, val_main_cst_13_apply, val_main_v53_apply, val_main_v54_apply, val_main_cst_14_apply, val_main_v55_apply, val_main_v56_apply, val_main_v57_apply, val_main_cst_15_apply, val_main_v58_apply, val_main_v59_apply, val_main_cst_16_apply, val_main_v60_apply, val_main_v61_apply, val_main_cst_17_apply, val_main_v62_apply, val_main_v63_apply, val_main_v64_apply, val_main_cst_18_apply, val_main_v65_apply, val_main_v66_apply, val_main_cst_19_apply, val_main_v67_apply, val_main_v68_apply, val_main_cst_20_apply, val_main_v69_apply, val_main_v70_apply, val_main_v71_apply, val_main_cst_21_apply, val_main_v72_apply, val_main_v73_apply, val_main_v74_apply, val_main_v75_apply, val_main_cst_22_apply, val_main_v76_apply, val_main_v77_apply, val_main_cst_23_apply, val_main_v78_apply, val_main_v79_apply, val_main_v80_apply, val_main_v81_apply, v10_row, v12_row, v14_row]
  rfl

theorem col0 (x1 : (⟨S1048576x3, .f32⟩ : BufTy).Contents (Elt Ideal)) (r : Fin 1048576) :
    val_main_v82 (F := Ideal) (ix2 r (0 : Fin 1)) = harmonics (x1 (ix2 r (0 : Fin 3))) (x1 (ix2 r (1 : Fin 3))) (x1 (ix2 r (2 : Fin 3))) 0 := by
  rw [val_main_v82_apply]
  have e : idx_main_v82 (ix2 r (0 : Fin 1)) = ix1 r := funext fun a => by
    match a with
    | ⟨0, _⟩ => rfl
  rw [e]
  exact harm0 x1 r

theorem col1 (x1 : (⟨S1048576x3, .f32⟩ : BufTy).Contents (Elt Ideal)) (r : Fin 1048576) :
    val_main_v83 (F := Ideal) x1 (ix2 r (0 : Fin 1)) = harmonics (x1 (ix2 r (0 : Fin 3))) (x1 (ix2 r (1 : Fin 3))) (x1 (ix2 r (2 : Fin 3))) 1 := by
  rw [val_main_v83_apply]
  have e : idx_main_v83 (ix2 r (0 : Fin 1)) = ix1 r := funext fun a => by
    match a with
    | ⟨0, _⟩ => rfl
  rw [e]
  exact harm1 x1 r

theorem col2 (x1 : (⟨S1048576x3, .f32⟩ : BufTy).Contents (Elt Ideal)) (r : Fin 1048576) :
    val_main_v84 (F := Ideal) x1 (ix2 r (0 : Fin 1)) = harmonics (x1 (ix2 r (0 : Fin 3))) (x1 (ix2 r (1 : Fin 3))) (x1 (ix2 r (2 : Fin 3))) 2 := by
  rw [val_main_v84_apply]
  have e : idx_main_v84 (ix2 r (0 : Fin 1)) = ix1 r := funext fun a => by
    match a with
    | ⟨0, _⟩ => rfl
  rw [e]
  exact harm2 x1 r

theorem col3 (x1 : (⟨S1048576x3, .f32⟩ : BufTy).Contents (Elt Ideal)) (r : Fin 1048576) :
    val_main_v85 (F := Ideal) x1 (ix2 r (0 : Fin 1)) = harmonics (x1 (ix2 r (0 : Fin 3))) (x1 (ix2 r (1 : Fin 3))) (x1 (ix2 r (2 : Fin 3))) 3 := by
  rw [val_main_v85_apply]
  have e : idx_main_v85 (ix2 r (0 : Fin 1)) = ix1 r := funext fun a => by
    match a with
    | ⟨0, _⟩ => rfl
  rw [e]
  exact harm3 x1 r

theorem col4 (x1 : (⟨S1048576x3, .f32⟩ : BufTy).Contents (Elt Ideal)) (r : Fin 1048576) :
    val_main_v86 (F := Ideal) x1 (ix2 r (0 : Fin 1)) = harmonics (x1 (ix2 r (0 : Fin 3))) (x1 (ix2 r (1 : Fin 3))) (x1 (ix2 r (2 : Fin 3))) 4 := by
  rw [val_main_v86_apply]
  have e : idx_main_v86 (ix2 r (0 : Fin 1)) = ix1 r := funext fun a => by
    match a with
    | ⟨0, _⟩ => rfl
  rw [e]
  exact harm4 x1 r

theorem col5 (x1 : (⟨S1048576x3, .f32⟩ : BufTy).Contents (Elt Ideal)) (r : Fin 1048576) :
    val_main_v87 (F := Ideal) x1 (ix2 r (0 : Fin 1)) = harmonics (x1 (ix2 r (0 : Fin 3))) (x1 (ix2 r (1 : Fin 3))) (x1 (ix2 r (2 : Fin 3))) 5 := by
  rw [val_main_v87_apply]
  have e : idx_main_v87 (ix2 r (0 : Fin 1)) = ix1 r := funext fun a => by
    match a with
    | ⟨0, _⟩ => rfl
  rw [e]
  exact harm5 x1 r

theorem col6 (x1 : (⟨S1048576x3, .f32⟩ : BufTy).Contents (Elt Ideal)) (r : Fin 1048576) :
    val_main_v88 (F := Ideal) x1 (ix2 r (0 : Fin 1)) = harmonics (x1 (ix2 r (0 : Fin 3))) (x1 (ix2 r (1 : Fin 3))) (x1 (ix2 r (2 : Fin 3))) 6 := by
  rw [val_main_v88_apply]
  have e : idx_main_v88 (ix2 r (0 : Fin 1)) = ix1 r := funext fun a => by
    match a with
    | ⟨0, _⟩ => rfl
  rw [e]
  exact harm6 x1 r

theorem col7 (x1 : (⟨S1048576x3, .f32⟩ : BufTy).Contents (Elt Ideal)) (r : Fin 1048576) :
    val_main_v89 (F := Ideal) x1 (ix2 r (0 : Fin 1)) = harmonics (x1 (ix2 r (0 : Fin 3))) (x1 (ix2 r (1 : Fin 3))) (x1 (ix2 r (2 : Fin 3))) 7 := by
  rw [val_main_v89_apply]
  have e : idx_main_v89 (ix2 r (0 : Fin 1)) = ix1 r := funext fun a => by
    match a with
    | ⟨0, _⟩ => rfl
  rw [e]
  exact harm7 x1 r

theorem col8 (x1 : (⟨S1048576x3, .f32⟩ : BufTy).Contents (Elt Ideal)) (r : Fin 1048576) :
    val_main_v90 (F := Ideal) x1 (ix2 r (0 : Fin 1)) = harmonics (x1 (ix2 r (0 : Fin 3))) (x1 (ix2 r (1 : Fin 3))) (x1 (ix2 r (2 : Fin 3))) 8 := by
  rw [val_main_v90_apply]
  have e : idx_main_v90 (ix2 r (0 : Fin 1)) = ix1 r := funext fun a => by
    match a with
    | ⟨0, _⟩ => rfl
  rw [e]
  exact harm8 x1 r

theorem col9 (x1 : (⟨S1048576x3, .f32⟩ : BufTy).Contents (Elt Ideal)) (r : Fin 1048576) :
    val_main_v91 (F := Ideal) x1 (ix2 r (0 : Fin 1)) = harmonics (x1 (ix2 r (0 : Fin 3))) (x1 (ix2 r (1 : Fin 3))) (x1 (ix2 r (2 : Fin 3))) 9 := by
  rw [val_main_v91_apply]
  have e : idx_main_v91 (ix2 r (0 : Fin 1)) = ix1 r := funext fun a => by
    match a with
    | ⟨0, _⟩ => rfl
  rw [e]
  exact harm9 x1 r

theorem col10 (x1 : (⟨S1048576x3, .f32⟩ : BufTy).Contents (Elt Ideal)) (r : Fin 1048576) :
    val_main_v92 (F := Ideal) x1 (ix2 r (0 : Fin 1)) = harmonics (x1 (ix2 r (0 : Fin 3))) (x1 (ix2 r (1 : Fin 3))) (x1 (ix2 r (2 : Fin 3))) 10 := by
  rw [val_main_v92_apply]
  have e : idx_main_v92 (ix2 r (0 : Fin 1)) = ix1 r := funext fun a => by
    match a with
    | ⟨0, _⟩ => rfl
  rw [e]
  exact harm10 x1 r

theorem col11 (x1 : (⟨S1048576x3, .f32⟩ : BufTy).Contents (Elt Ideal)) (r : Fin 1048576) :
    val_main_v93 (F := Ideal) x1 (ix2 r (0 : Fin 1)) = harmonics (x1 (ix2 r (0 : Fin 3))) (x1 (ix2 r (1 : Fin 3))) (x1 (ix2 r (2 : Fin 3))) 11 := by
  rw [val_main_v93_apply]
  have e : idx_main_v93 (ix2 r (0 : Fin 1)) = ix1 r := funext fun a => by
    match a with
    | ⟨0, _⟩ => rfl
  rw [e]
  exact harm11 x1 r

theorem col12 (x1 : (⟨S1048576x3, .f32⟩ : BufTy).Contents (Elt Ideal)) (r : Fin 1048576) :
    val_main_v94 (F := Ideal) x1 (ix2 r (0 : Fin 1)) = harmonics (x1 (ix2 r (0 : Fin 3))) (x1 (ix2 r (1 : Fin 3))) (x1 (ix2 r (2 : Fin 3))) 12 := by
  rw [val_main_v94_apply]
  have e : idx_main_v94 (ix2 r (0 : Fin 1)) = ix1 r := funext fun a => by
    match a with
    | ⟨0, _⟩ => rfl
  rw [e]
  exact harm12 x1 r

theorem col13 (x1 : (⟨S1048576x3, .f32⟩ : BufTy).Contents (Elt Ideal)) (r : Fin 1048576) :
    val_main_v95 (F := Ideal) x1 (ix2 r (0 : Fin 1)) = harmonics (x1 (ix2 r (0 : Fin 3))) (x1 (ix2 r (1 : Fin 3))) (x1 (ix2 r (2 : Fin 3))) 13 := by
  rw [val_main_v95_apply]
  have e : idx_main_v95 (ix2 r (0 : Fin 1)) = ix1 r := funext fun a => by
    match a with
    | ⟨0, _⟩ => rfl
  rw [e]
  exact harm13 x1 r

theorem col14 (x1 : (⟨S1048576x3, .f32⟩ : BufTy).Contents (Elt Ideal)) (r : Fin 1048576) :
    val_main_v96 (F := Ideal) x1 (ix2 r (0 : Fin 1)) = harmonics (x1 (ix2 r (0 : Fin 3))) (x1 (ix2 r (1 : Fin 3))) (x1 (ix2 r (2 : Fin 3))) 14 := by
  rw [val_main_v96_apply]
  have e : idx_main_v96 (ix2 r (0 : Fin 1)) = ix1 r := funext fun a => by
    match a with
    | ⟨0, _⟩ => rfl
  rw [e]
  exact harm14 x1 r

theorem col15 (x1 : (⟨S1048576x3, .f32⟩ : BufTy).Contents (Elt Ideal)) (r : Fin 1048576) :
    val_main_v97 (F := Ideal) x1 (ix2 r (0 : Fin 1)) = harmonics (x1 (ix2 r (0 : Fin 3))) (x1 (ix2 r (1 : Fin 3))) (x1 (ix2 r (2 : Fin 3))) 15 := by
  rw [val_main_v97_apply]
  have e : idx_main_v97 (ix2 r (0 : Fin 1)) = ix1 r := funext fun a => by
    match a with
    | ⟨0, _⟩ => rfl
  rw [e]
  exact harm15 x1 r

/-- The sixteen harmonic columns joined side by side: at `(r, q)`, harmonic `q` of direction row `r`. -/
theorem v98_row (x1 : (⟨S1048576x3, .f32⟩ : BufTy).Contents (Elt Ideal)) (r : Fin 1048576) (q : Fin 16) :
    val_main_v98 (F := Ideal) x1 (ix2 r q) = harmonics (x1 (ix2 r (0 : Fin 3))) (x1 (ix2 r (1 : Fin 3))) (x1 (ix2 r (2 : Fin 3))) q := by
  unfold val_main_v98
  refine (concatCols16_apply (n := 1048576) ![val_main_v82 (F := Ideal), val_main_v83 (F := Ideal) x1, val_main_v84 (F := Ideal) x1, val_main_v85 (F := Ideal) x1, val_main_v86 (F := Ideal) x1, val_main_v87 (F := Ideal) x1, val_main_v88 (F := Ideal) x1, val_main_v89 (F := Ideal) x1, val_main_v90 (F := Ideal) x1, val_main_v91 (F := Ideal) x1, val_main_v92 (F := Ideal) x1, val_main_v93 (F := Ideal) x1, val_main_v94 (F := Ideal) x1, val_main_v95 (F := Ideal) x1, val_main_v96 (F := Ideal) x1, val_main_v97 (F := Ideal) x1] concatenates_S1048576x1_S1048576x1_S1048576x1_S1048576x1_S1048576x1_S1048576x1_S1048576x1_S1048576x1_S1048576x1_S1048576x1_S1048576x1_S1048576x1_S1048576x1_S1048576x1_S1048576x1_S1048576x1_S1048576x16_d1 r q).trans ?_
  refine (eval16 (val_main_v82 (F := Ideal)) (val_main_v83 (F := Ideal) x1) (val_main_v84 (F := Ideal) x1) (val_main_v85 (F := Ideal) x1) (val_main_v86 (F := Ideal) x1) (val_main_v87 (F := Ideal) x1) (val_main_v88 (F := Ideal) x1) (val_main_v89 (F := Ideal) x1) (val_main_v90 (F := Ideal) x1) (val_main_v91 (F := Ideal) x1) (val_main_v92 (F := Ideal) x1) (val_main_v93 (F := Ideal) x1) (val_main_v94 (F := Ideal) x1) (val_main_v95 (F := Ideal) x1) (val_main_v96 (F := Ideal) x1) (val_main_v97 (F := Ideal) x1) (ix2 r (0 : Fin 1)) q).trans ?_
  exact congrFun (ext16 _ _ (col0 x1 r) (col1 x1 r) (col2 x1 r) (col3 x1 r) (col4 x1 r) (col5 x1 r) (col6 x1 r) (col7 x1 r) (col8 x1 r) (col9 x1 r) (col10 x1 r) (col11 x1 r) (col12 x1 r) (col13 x1 r) (col14 x1 r) (col15 x1 r)) q

/-- The density features joined to the left of the harmonics. -/
theorem v99_row (x0 : (⟨S1048576x32, .f32⟩ : BufTy).Contents (Elt Ideal)) (x1 : (⟨S1048576x3, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (r : Fin 1048576) (k : Fin 32) :
    val_main_v99 (F := Ideal) x0 x1 x2 x3 x4 x5 (ix2 r k) = join (densityRow x2 x3 x4 x5 (fun j => x0 (ix2 r j))) (harmonics (x1 (ix2 r (0 : Fin 3))) (x1 (ix2 r (1 : Fin 3))) (x1 (ix2 r (2 : Fin 3)))) k := by
  unfold val_main_v99 join
  split
  · next h =>
    exact (concatPair_apply_left (val_main_v8 (F := Ideal) x0 x2 x3 x4 x5) (val_main_v98 (F := Ideal) x1)
      concatenates_S1048576x16_S1048576x16_S1048576x32_d1 r k h).trans (v8_row x0 x2 x3 x4 x5 r _)
  · next h =>
    exact (concatPair_apply_right (val_main_v8 (F := Ideal) x0 x2 x3 x4 x5) (val_main_v98 (F := Ideal) x1)
      concatenates_S1048576x16_S1048576x16_S1048576x32_d1 r k (by omega) _).trans (v98_row x1 r _)

/-! ## The colour head -/

theorem v104_row (x0 : (⟨S1048576x32, .f32⟩ : BufTy).Contents (Elt Ideal)) (x1 : (⟨S1048576x3, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S32x64, .f32⟩ : BufTy).Contents (Elt Ideal)) (x7 : (⟨S64, .f32⟩ : BufTy).Contents (Elt Ideal)) (r : Fin 1048576) (k : Fin 64) :
    val_main_v104 (F := Ideal) x0 x1 x2 x3 x4 x5 x6 x7 (ix2 r k) = hidden1 x2 x3 x4 x5 x6 x7 (fun j => x0 (ix2 r j)) (x1 (ix2 r (0 : Fin 3))) (x1 (ix2 r (1 : Fin 3))) (x1 (ix2 r (2 : Fin 3))) k := by
  rw [val_main_v104_apply, val_main_v103_apply, val_main_v100_apply, val_main_v102_apply, val_main_v101_apply,
    val_main_call1_v0_apply, val_main_call1_cst_apply]
  have e1 : ∀ j : Fin 32, lidx_main_v100 (ix2 r k) j = ix2 r j := fun j => funext fun a => by
    match a with
    | ⟨0, _⟩ => rfl
    | ⟨1, _⟩ => rfl
  have e2 : ∀ j : Fin 32, ridx_main_v100 (ix2 r k) j = ix2 j k := fun j => funext fun a => by
    match a with
    | ⟨0, _⟩ => rfl
    | ⟨1, _⟩ => rfl
  have e3 : idx_main_v101 (idx_main_v102 (ix2 r k)) = ix1 k := funext fun a => by
    match a with
    | ⟨0, _⟩ => rfl
  simp only [e1, e2, e3, v99_row]
  rfl

theorem v109_row (x0 : (⟨S1048576x32, .f32⟩ : BufTy).Contents (Elt Ideal)) (x1 : (⟨S1048576x3, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S32x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (r : Fin 1048576) (k : Fin 64) :
    val_main_v109 (F := Ideal) x0 x1 x2 x3 x4 x5 x6 x7 x8 x9 (ix2 r k) = hidden2 x2 x3 x4 x5 x6 x7 x8 x9 (fun j => x0 (ix2 r j)) (x1 (ix2 r (0 : Fin 3))) (x1 (ix2 r (1 : Fin 3))) (x1 (ix2 r (2 : Fin 3))) k := by
  rw [val_main_v109_apply, val_main_v108_apply, val_main_v105_apply, val_main_v107_apply, val_main_v106_apply,
    val_main_call2_v0_apply, val_main_call2_cst_apply]
  have e1 : ∀ j : Fin 64, lidx_main_v105 (ix2 r k) j = ix2 r j := fun j => funext fun a => by
    match a with
    | ⟨0, _⟩ => rfl
    | ⟨1, _⟩ => rfl
  have e2 : ∀ j : Fin 64, ridx_main_v105 (ix2 r k) j = ix2 j k := fun j => funext fun a => by
    match a with
    | ⟨0, _⟩ => rfl
    | ⟨1, _⟩ => rfl
  have e3 : idx_main_v106 (idx_main_v107 (ix2 r k)) = ix1 k := funext fun a => by
    match a with
    | ⟨0, _⟩ => rfl
  simp only [e1, e2, e3, v104_row]
  rfl

theorem v119_row (x0 : (⟨S1048576x32, .f32⟩ : BufTy).Contents (Elt Ideal)) (x1 : (⟨S1048576x3, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S32x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x3, .f32⟩ : BufTy).Contents (Elt Ideal)) (x11 : (⟨S3, .f32⟩ : BufTy).Contents (Elt Ideal)) (r : Fin 1048576) (j : Fin 3) :
    val_main_v119 (F := Ideal) x0 x1 x2 x3 x4 x5 x6 x7 x8 x9 x10 x11 (ix2 r j) = colorRow x2 x3 x4 x5 x6 x7 x8 x9 x10 x11 (fun j => x0 (ix2 r j)) (x1 (ix2 r (0 : Fin 3))) (x1 (ix2 r (1 : Fin 3))) (x1 (ix2 r (2 : Fin 3))) j := by
  rw [val_main_v119_apply, val_main_v118_apply, val_main_cst_25_apply, val_main_v117_apply, val_main_v116_apply, val_main_cst_24_apply,
    val_main_v115_apply, val_main_v114_apply, val_main_v113_apply, val_main_v110_apply, val_main_v112_apply, val_main_v111_apply]
  have e1 : ∀ k : Fin 64, lidx_main_v110 (ix2 r j) k = ix2 r k := fun k => funext fun a => by
    match a with
    | ⟨0, _⟩ => rfl
    | ⟨1, _⟩ => rfl
  have e2 : ∀ k : Fin 64, ridx_main_v110 (ix2 r j) k = ix2 k j := fun k => funext fun a => by
    match a with
    | ⟨0, _⟩ => rfl
    | ⟨1, _⟩ => rfl
  have e3 : idx_main_v111 (idx_main_v112 (ix2 r j)) = ix1 j := funext fun a => by
    match a with
    | ⟨0, _⟩ => rfl
  simp only [e1, e2, e3, v109_row, Ideal.ofBits_def, lit_one]
  rfl

/-! ## The two results as whole arrays -/

/-- The reference's first result is the density array. -/
theorem ref_density (x0 : (⟨S1048576x32, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) :
    val_main_v8 (F := Ideal) x0 x2 x3 x4 x5 = density x2 x3 x4 x5 x0 := by
  funext i
  obtain ⟨r, q, rfl⟩ : ∃ (r : Fin 1048576) (q : Fin 16), i = ix2 r q := ⟨i 0, i 1, eq_ix2 i⟩
  exact v8_row x0 x2 x3 x4 x5 r q

/-- The reference's second result is the colour array. -/
theorem ref_color (x0 : (⟨S1048576x32, .f32⟩ : BufTy).Contents (Elt Ideal)) (x1 : (⟨S1048576x3, .f32⟩ : BufTy).Contents (Elt Ideal)) (x2 : (⟨S32x64, .f32⟩ : BufTy).Contents (Elt Ideal)) (x3 : (⟨S64, .f32⟩ : BufTy).Contents (Elt Ideal)) (x4 : (⟨S64x16, .f32⟩ : BufTy).Contents (Elt Ideal)) (x5 : (⟨S16, .f32⟩ : BufTy).Contents (Elt Ideal)) (x6 : (⟨S32x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x3, .f32⟩ : BufTy).Contents (Elt Ideal)) (x11 : (⟨S3, .f32⟩ : BufTy).Contents (Elt Ideal)) :
    val_main_v119 (F := Ideal) x0 x1 x2 x3 x4 x5 x6 x7 x8 x9 x10 x11 = color x2 x3 x4 x5 x6 x7 x8 x9 x10 x11 x0 x1 := by
  funext i
  obtain ⟨r, j, rfl⟩ : ∃ (r : Fin 1048576) (j : Fin 3), i = ix2 r j := ⟨i 0, i 1, eq_ix2 i⟩
  exact v119_row x0 x1 x2 x3 x4 x5 x6 x7 x8 x9 x10 x11 r j

end Cert.ReferenceIdeal.RefRows

end
-- ==== Proof.lean ====
/-
  A fused multilayer perceptron against its plain reference, over the extended reals.

  Both programs take 1,048,576 position rows of length 32 and direction rows of length 3 and five dense layers' weights and
  biases. Row by row both compute: the density features, two dense layers of the position row with a rectifier between
  them; the sixteen real spherical harmonics of the direction row, polynomials with the same float32 coefficients
  multiplied out in the same order; and the colour, three dense layers of the density features joined with the harmonics,
  rectified between, closed by the logistic function. The kernel rounds its matrix products' operands to a shorter float
  format, which over the extended reals changes nothing; it takes the rows 1024 at a time, one grid point per block of
  rows; and it names the logistic function where the reference spells `1 / (1 + e^(-v))`, which is that function's
  definition. So each program ends with the same two arrays: at `(r, q)` the density feature `q` of row `r`, and at
  `(r, j)` the colour channel `j` of row `r`. No operation is regrouped and no sum reordered, so the equality holds at
  every extended real and the finiteness of the inputs is not used.

  The three frames are the generated frame runs (the reference's is its generated run with the results dropped); the
  idealization rewrote nothing, so what it must preserve is trivially true.
-/
import proofs.«101879_j76673756168435_2_alg».proof.Defs
import proofs.«101879_j76673756168435_2_alg».proof.Proof.Gen.Kernel
import proofs.«101879_j76673756168435_2_alg».proof.Proof.Gen.Kernel.Skeleton
import proofs.«101879_j76673756168435_2_alg».proof.Proof.Gen.Kernel.Launch
import proofs.«101879_j76673756168435_2_alg».proof.Proof.Gen.Kernel.Points
import proofs.«101879_j76673756168435_2_alg».proof.Proof.Gen.Kernel.Frame
import proofs.«101879_j76673756168435_2_alg».proof.Proof.Gen.KernelIdeal
import proofs.«101879_j76673756168435_2_alg».proof.Proof.Gen.KernelIdeal.Skeleton
import proofs.«101879_j76673756168435_2_alg».proof.Proof.Gen.KernelIdeal.Launch
import proofs.«101879_j76673756168435_2_alg».proof.Proof.Gen.KernelIdeal.Points
import proofs.«101879_j76673756168435_2_alg».proof.Proof.Gen.KernelIdeal.Frame
import proofs.«101879_j76673756168435_2_alg».proof.Proof.Gen.ReferenceIdeal
import proofs.«101879_j76673756168435_2_alg».proof.Proof.Gen.Pre_finite_inputs
import proofs.«101879_j76673756168435_2_alg».proof.Proof.Gen.KernelIdeal.Value
import proofs.«101879_j76673756168435_2_alg».proof.Proof.Gen.ReferenceIdeal.Run
import proofs.«101879_j76673756168435_2_alg».proof.Proof.Gen.ReferenceIdeal.Read
import proofs.«101879_j76673756168435_2_alg».proof.Proof.KerArrays
import proofs.«101879_j76673756168435_2_alg».proof.Proof.RefRows
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the twelve arguments, both programs end with the density array and the colour array of
    those arguments. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    refine (h c).1.trans ?_
    rw [Cert.ReferenceIdeal.Read.val_main_v8_eq, Cert.ReferenceIdeal.RefRows.ref_density, a0, a2, a3, a4, a5]
  · obtain ⟨a0, a1, a2, a3, a4, a5, a6, a7, a8, a9, a10, a11⟩ := hagree c
    refine (h c).2.1.trans ?_
    rw [Cert.ReferenceIdeal.Read.val_main_v119_eq, Cert.ReferenceIdeal.RefRows.ref_color, a0, a1, a2, a3, a4, a5, a6, a7, a8, a9,
      a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
